-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S2x8x128 : Shape := ⟨3, ![2, 8, 128]⟩
abbrev S262144x4 : Shape := ⟨2, ![262144, 4]⟩
abbrev S1x8x128 : Shape := ⟨3, ![1, 8, 128]⟩
abbrev S8x128 : Shape := ⟨2, ![8, 128]⟩
abbrev S262144x1 : Shape := ⟨2, ![262144, 1]⟩
abbrev S1x262144x1 : Shape := ⟨3, ![1, 262144, 1]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S2x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S262144x4, .f32⟩
  | .local _ .vmem, ⟨1, _⟩ => ⟨S262144x4, .f32⟩
  | .local _ .vmem, ⟨2, _⟩ => ⟨S262144x4, .f32⟩
  | .local _ .vmem, ⟨3, _⟩ => ⟨S262144x4, .f32⟩
  | .local _ .vmem, ⟨4, _⟩ => ⟨S1x8x128, .f32⟩
  | .local _ .vmem, ⟨5, _⟩ => ⟨S1x8x128, .f32⟩
  | .local _ .vmem, ⟨6, _⟩ => ⟨S8x128, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v193 : BitVec 1 := Scalar.cmpi .eq arg1 c15_i32
  let v194 : BitVec 32 := Scalar.extui v193
  let c0_i32_59 : BitVec 32 := 0#32
  let v195 : BitVec 1 := Scalar.cmpi .ne v194 c0_i32_59
  v195

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S262144x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S262144x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S262144x4_S262144x4_0_0 : ∀ a, (![0, 0] : Fin 2 → Nat) a + S262144x4.size a ≤ S262144x4.size a
  h_S262144x4 : 0 < S262144x4.numel
  slices_S262144x4_o0_0_S262144x1 : S262144x4.Slices ![0, 0] S262144x1
  slices_S262144x4_o0_1_S262144x1 : S262144x4.Slices ![0, 1] S262144x1
  slices_S262144x4_o0_2_S262144x1 : S262144x4.Slices ![0, 2] S262144x1
  slices_S262144x4_o0_3_S262144x1 : S262144x4.Slices ![0, 3] S262144x1
  shapeCasts_S262144x1_S1x262144x1 : S262144x1.ShapeCasts S1x262144x1
  reduces_S1x262144x1_S1 : S1x262144x1.Reduces [1, 2] S1
  shapeCasts_S1_S1x1x1 : S1.ShapeCasts S1x1x1
  inpos_S1x1x1_p0_0_0 : ∀ a, (![0, 0, 0] : Fin 3 → Nat) a < S1x1x1.size a
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144x4.size a ≤ S8388608x4.size a
  hwx0_0 : ∀ i : grid0.Coords, EltTy.bits .f32 = 32 ∨ (Rect.block (s := S8388608x4) S262144x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144x4.size a ≤ S8388608x4.size a
  hwx0_1 : ∀ i : grid0.Coords, EltTy.bits .f32 = 32 ∨ (Rect.block (s := S8388608x4) S262144x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_arg0) S262144x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8388608x4 : Shape := ⟨2, ![8388608, 4]⟩
abbrev S_ : Shape := ⟨0, ![]⟩
abbrev S8388608x1 : Shape := ⟨2, ![8388608, 1]⟩
abbrev S8388608 : Shape := ⟨1, ![8388608]⟩
abbrev S8388608x2 : Shape := ⟨2, ![8388608, 2]⟩

abbrev nBuf : Space → Nat
  | .hbm => 180
  | .vmem => 0
  | .smem => 0
  | _ => 0

abbrev hbmTy0_0 (i : Nat) : BufTy := match i % 128 with
  | 0 => ⟨S8388608x4, .f32⟩
  | 1 => ⟨S8388608x4, .f32⟩
  | 2 => ⟨S_, .f32⟩
  | 3 => ⟨S_, .f32⟩
  | 4 => ⟨S8388608x4, .f32⟩
  | 5 => ⟨S8388608x4, .f32⟩
  | 6 => ⟨S8388608x4, .f32⟩
  | 7 => ⟨S8388608x1, .f32⟩
  | 8 => ⟨S8388608, .f32⟩
  | 9 => ⟨S8388608x1, .f32⟩
  | 10 => ⟨S8388608, .f32⟩
  | 11 => ⟨S8388608x1, .f32⟩
  | 12 => ⟨S8388608, .f32⟩
  | 13 => ⟨S8388608x1, .f32⟩
  | 14 => ⟨S8388608, .f32⟩
  | 15 => ⟨S8388608, .f32⟩
  | 16 => ⟨S_, .f32⟩
  | 17 => ⟨S8388608, .f32⟩
  | 18 => ⟨S8388608, .f32⟩
  | 19 => ⟨S8388608, .f32⟩
  | 20 => ⟨S8388608, .f32⟩
  | 21 => ⟨S_, .f32⟩
  | 22 => ⟨S8388608, .f32⟩
  | 23 => ⟨S8388608, .f32⟩
  | 24 => ⟨S8388608, .f32⟩
  | 25 => ⟨S8388608x1, .f32⟩
  | 26 => ⟨S8388608x1, .f32⟩
  | 27 => ⟨S8388608x2, .f32⟩
  | 28 => ⟨S8388608, .f32⟩
  | 29 => ⟨S_, .f32⟩
  | 30 => ⟨S8388608, .f32⟩
  | 31 => ⟨S8388608, .f32⟩
  | 32 => ⟨S8388608, .f32⟩
  | 33 => ⟨S8388608, .f32⟩
  | 34 => ⟨S_, .f32⟩
  | 35 => ⟨S8388608, .f32⟩
  | 36 => ⟨S8388608, .f32⟩
  | 37 => ⟨S8388608, .f32⟩
  | 38 => ⟨S8388608x1, .f32⟩
  | 39 => ⟨S8388608x1, .f32⟩
  | 40 => ⟨S8388608x2, .f32⟩
  | 41 => ⟨S_, .f32⟩
  | 42 => ⟨S8388608x2, .f32⟩
  | 43 => ⟨S8388608x2, .f32⟩
  | 44 => ⟨S_, .f32⟩
  | 45 => ⟨S_, .f32⟩
  | 46 => ⟨S8388608x4, .f32⟩
  | 47 => ⟨S8388608x4, .f32⟩
  | 48 => ⟨S8388608x4, .f32⟩
  | 49 => ⟨S8388608x1, .f32⟩
  | 50 => ⟨S8388608, .f32⟩
  | 51 => ⟨S8388608x1, .f32⟩
  | 52 => ⟨S8388608, .f32⟩
  | 53 => ⟨S8388608x1, .f32⟩
  | 54 => ⟨S8388608, .f32⟩
  | 55 => ⟨S8388608x1, .f32⟩
  | 56 => ⟨S8388608, .f32⟩
  | 57 => ⟨S8388608, .f32⟩
  | 58 => ⟨S_, .f32⟩
  | 59 => ⟨S8388608, .f32⟩
  | 60 => ⟨S8388608, .f32⟩
  | 61 => ⟨S8388608, .f32⟩
  | 62 => ⟨S8388608, .f32⟩
  | 63 => ⟨S_, .f32⟩
  | 64 => ⟨S8388608, .f32⟩
  | 65 => ⟨S8388608, .f32⟩
  | 66 => ⟨S8388608, .f32⟩
  | 67 => ⟨S8388608x1, .f32⟩
  | 68 => ⟨S8388608x1, .f32⟩
  | 69 => ⟨S8388608x2, .f32⟩
  | 70 => ⟨S8388608, .f32⟩
  | 71 => ⟨S_, .f32⟩
  | 72 => ⟨S8388608, .f32⟩
  | 73 => ⟨S8388608, .f32⟩
  | 74 => ⟨S8388608, .f32⟩
  | 75 => ⟨S8388608, .f32⟩
  | 76 => ⟨S_, .f32⟩
  | 77 => ⟨S8388608, .f32⟩
  | 78 => ⟨S8388608, .f32⟩
  | 79 => ⟨S8388608, .f32⟩
  | 80 => ⟨S8388608x1, .f32⟩
  | 81 => ⟨S8388608x1, .f32⟩
  | 82 => ⟨S8388608x2, .f32⟩
  | 83 => ⟨S_, .f32⟩
  | 84 => ⟨S8388608x2, .f32⟩
  | 85 => ⟨S8388608x2, .f32⟩
  | 86 => ⟨S_, .f32⟩
  | 87 => ⟨S8388608x2, .f32⟩
  | 88 => ⟨S8388608x2, .f32⟩
  | 89 => ⟨S_, .f32⟩
  | 90 => ⟨S8388608x2, .f32⟩
  | 91 => ⟨S8388608x2, .f32⟩
  | 92 => ⟨S_, .f32⟩
  | 93 => ⟨S8388608x2, .f32⟩
  | 94 => ⟨S8388608x2, .f32⟩
  | 95 => ⟨S_, .f32⟩
  | 96 => ⟨S8388608x2, .f32⟩
  | 97 => ⟨S8388608x2, .f32⟩
  | 98 => ⟨S8388608x2, .f32⟩
  | 99 => ⟨S_, .f32⟩
  | 100 => ⟨S8388608x2, .f32⟩
  | 101 => ⟨S8388608x2, .f32⟩
  | 102 => ⟨S_, .f32⟩
  | 103 => ⟨S8388608x2, .f32⟩
  | 104 => ⟨S8388608x2, .f32⟩
  | 105 => ⟨S8388608x2, .f32⟩
  | 106 => ⟨S_, .f32⟩
  | 107 => ⟨S8388608x2, .f32⟩
  | 108 => ⟨S8388608x2, .f32⟩
  | 109 => ⟨S8388608x2, .f32⟩
  | 110 => ⟨S8388608x2, .f32⟩
  | 111 => ⟨S8388608x2, .f32⟩
  | 112 => ⟨S_, .f32⟩
  | 113 => ⟨S8388608x2, .f32⟩
  | 114 => ⟨S8388608x2, .f32⟩
  | 115 => ⟨S_, .f32⟩
  | 116 => ⟨S8388608x2, .f32⟩
  | 117 => ⟨S8388608x2, .f32⟩
  | 118 => ⟨S8388608x2, .f32⟩
  | 119 => ⟨S8388608x2, .f32⟩
  | 120 => ⟨S_, .f32⟩
  | 121 => ⟨S8388608, .f32⟩
  | 122 => ⟨S8388608x2, .f32⟩
  | 123 => ⟨S_, .f32⟩
  | 124 => ⟨S8388608, .f32⟩
  | 125 => ⟨S8388608x2, .f32⟩
  | 126 => ⟨S_, .f32⟩
  | 127 => ⟨S8388608, .f32⟩
  | _ => ⟨S8388608x4, .f32⟩

abbrev hbmTy0_1 (i : Nat) : BufTy := match i % 128 with
  | 0 => ⟨S_, .f32⟩
  | 1 => ⟨S8388608, .f32⟩
  | 2 => ⟨S8388608, .f32⟩
  | 3 => ⟨S8388608, .f32⟩
  | 4 => ⟨S8388608x2, .f32⟩
  | 5 => ⟨S_, .f32⟩
  | 6 => ⟨S8388608, .f32⟩
  | 7 => ⟨S_, .f32⟩
  | 8 => ⟨S8388608, .f32⟩
  | 9 => ⟨S8388608, .f32⟩
  | 10 => ⟨S8388608, .f32⟩
  | 11 => ⟨S8388608x2, .f32⟩
  | 12 => ⟨S8388608x2, .f32⟩
  | 13 => ⟨S8388608x2, .f32⟩
  | 14 => ⟨S8388608x2, .f32⟩
  | 15 => ⟨S_, .f32⟩
  | 16 => ⟨S8388608, .f32⟩
  | 17 => ⟨S_, .f32⟩
  | 18 => ⟨S8388608, .f32⟩
  | 19 => ⟨S8388608, .f32⟩
  | 20 => ⟨S8388608x2, .f32⟩
  | 21 => ⟨S8388608x2, .f32⟩
  | 22 => ⟨S_, .f32⟩
  | 23 => ⟨S8388608, .f32⟩
  | 24 => ⟨S_, .f32⟩
  | 25 => ⟨S8388608, .f32⟩
  | 26 => ⟨S8388608, .f32⟩
  | 27 => ⟨S8388608, .f32⟩
  | 28 => ⟨S_, .f32⟩
  | 29 => ⟨S8388608, .f32⟩
  | 30 => ⟨S8388608, .f32⟩
  | 31 => ⟨S8388608, .f32⟩
  | 32 => ⟨S8388608, .f32⟩
  | 33 => ⟨S_, .f32⟩
  | 34 => ⟨S8388608, .f32⟩
  | 35 => ⟨S8388608, .f32⟩
  | 36 => ⟨S8388608, .f32⟩
  | 37 => ⟨S_, .f32⟩
  | 38 => ⟨S8388608, .f32⟩
  | 39 => ⟨S8388608, .f32⟩
  | 40 => ⟨S_, .f32⟩
  | 41 => ⟨S8388608, .f32⟩
  | 42 => ⟨S8388608, .f32⟩
  | 43 => ⟨S_, .f32⟩
  | 44 => ⟨S8388608, .f32⟩
  | 45 => ⟨S8388608, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S8388608x4, .f32⟩

abbrev hbmTy (i : Nat) : BufTy := match i / 128 with
  | 0 => hbmTy0_0 i
  | 1 => hbmTy0_1 i
  | _ => ⟨S8388608x4, .f32⟩

abbrev bufTy : (tb : Table) → Fin (tcTables nBuf tb) → BufTy
  | .hbm, ⟨i, _⟩ => hbmTy i
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_8 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_10 : Ref sig .tc := ⟨.hbm, 83, rfl⟩
abbrev main_v66 : Ref sig .tc := ⟨.hbm, 84, rfl⟩
abbrev main_v67 : Ref sig .tc := ⟨.hbm, 85, rfl⟩
abbrev main_cst_11 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_cst_13 : Ref sig .tc := ⟨.hbm, 92, rfl⟩
abbrev main_v72 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_cst_16 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_18 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_20 : Ref sig .tc := ⟨.hbm, 120, rfl⟩
abbrev main_v93 : Ref sig .tc := ⟨.hbm, 121, rfl⟩
abbrev main_v94 : Ref sig .tc := ⟨.hbm, 122, rfl⟩
abbrev main_cst_21 : Ref sig .tc := ⟨.hbm, 123, rfl⟩
abbrev main_v95 : Ref sig .tc := ⟨.hbm, 124, rfl⟩
abbrev main_v96 : Ref sig .tc := ⟨.hbm, 125, rfl⟩
abbrev main_cst_22 : Ref sig .tc := ⟨.hbm, 126, rfl⟩
abbrev main_v97 : Ref sig .tc := ⟨.hbm, 127, rfl⟩
abbrev main_cst_23 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_24 : Ref sig .tc := ⟨.hbm, 133, rfl⟩
abbrev main_v102 : Ref sig .tc := ⟨.hbm, 134, rfl⟩
abbrev main_cst_25 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_26 : Ref sig .tc := ⟨.hbm, 143, rfl⟩
abbrev main_v110 : Ref sig .tc := ⟨.hbm, 144, rfl⟩
abbrev main_cst_27 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_28 : Ref sig .tc := ⟨.hbm, 150, rfl⟩
abbrev main_v115 : Ref sig .tc := ⟨.hbm, 151, rfl⟩
abbrev main_cst_29 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_30 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_31 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_32 : Ref sig .tc := ⟨.hbm, 165, rfl⟩
abbrev main_v126 : Ref sig .tc := ⟨.hbm, 166, rfl⟩
abbrev main_v127 : Ref sig .tc := ⟨.hbm, 167, rfl⟩
abbrev main_cst_33 : Ref sig .tc := ⟨.hbm, 168, rfl⟩
abbrev main_v128 : Ref sig .tc := ⟨.hbm, 169, rfl⟩
abbrev main_v129 : Ref sig .tc := ⟨.hbm, 170, rfl⟩
abbrev main_cst_34 : Ref sig .tc := ⟨.hbm, 171, rfl⟩
abbrev main_v130 : Ref sig .tc := ⟨.hbm, 172, rfl⟩
abbrev main_v131 : Ref sig .tc := ⟨.hbm, 173, rfl⟩
abbrev main_cst_35 : Ref sig .tc := ⟨.hbm, 174, rfl⟩
abbrev main_v132 : Ref sig .tc := ⟨.hbm, 175, rfl⟩
abbrev main_cst_36 : Ref sig .tc := ⟨.hbm, 176, rfl⟩
abbrev main_v133 : Ref sig .tc := ⟨.hbm, 177, rfl⟩
abbrev main_cst_37 : Ref sig .tc := ⟨.hbm, 178, rfl⟩
abbrev main_v134 : Ref sig .tc := ⟨.hbm, 179, rfl⟩

abbrev nD : Nat := 1
abbrev τ : Topo := Topo.v7x

variable {F : FTy → Type} [FloatOps F]

class Facts₀ : Prop where
  bcast_S_S8388608x4 : S_.BroadcastsInDim S8388608x4 (![] : Fin 0 → Fin S8388608x4.rank)
  slices_S8388608x4_S8388608x1_0_0 : S8388608x4.Slices ![0, 0] S8388608x1
  shapeCasts_S8388608x1_S8388608 : S8388608x1.ShapeCasts S8388608
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  bcast_S_S8388608x2 : S_.BroadcastsInDim S8388608x2 (![] : Fin 0 → Fin S8388608x2.rank)
  reducesTo_S8388608x2_S8388608_d1 : S8388608x2.ReducesTo [1] S8388608
  h_S_ : 0 < S_.numel
  reducesTo_S8388608_S_d0 : S8388608.ReducesTo [0] S_

variable [Facts₀]

class Facts : Prop extends Facts₀ where

variable [Facts]
-- ==== Proof.RowLoss.lean ====
/-
  One row of the loss, written twice: as the kernel computes it and as the reference computes it.

  A row is four box distances. Each is clamped below by a small positive constant and sent to its
  logarithm; from the four logarithms (left, top, right, bottom) come a centre and a variance on each of
  the two axes, so a pair of rows (a predicted box, a target box) is a pair of diagonal Gaussians. Per axis,
  with variances cp, ct and centres mp, mt, the mixture has precision sai = cp⁻¹/2 + ct⁻¹/2, variance
  sa = 1/sai and centre mu; the axis contributes a trace term, a log-determinant term and two
  displacement terms. js is half of (the two axes' contributions, minus 2), and the loss of the pair is
  1 - 1/(1 + js²).

  The kernel adds the four terms of each axis and then the two axes; the reference adds each kind of term
  over the two axes first (a two-entry sum onto zero) and scales afterwards; the kernel halves by the
  factor 1/2 where the reference divides by 2. On real entries the two are one number (RowLossEq).
-/
import Idealize.ShloMosaic.PureOps.Ideal
import Idealize.ShloMosaic.Lib.ValueIdx

noncomputable section

namespace RowLoss

open Idealize.ShloMosaic

/-- The constants of both programs, as the extended reals their words denote. -/
def zero : EReal := Ideal.ofBits .f32 0x00000000#32
def eps : EReal := Ideal.ofBits .f32 0x358637BD#32
def half : EReal := Ideal.ofBits .f32 0x3F000000#32
def one : EReal := Ideal.ofBits .f32 0x3F800000#32
def two : EReal := Ideal.ofBits .f32 0x40000000#32
/-- The number of rows, 2²³, as a float word. -/
def rows : EReal := Ideal.ofBits .f32 0x4B000000#32

/-! ## What the two programs share, per axis -/

/-- The mixture's precision on one axis, from the two variances. -/
def sai (cp ct : EReal) : EReal := half * Ideal.div one cp + half * Ideal.div one ct
/-- The mixture's variance. -/
def sa (cp ct : EReal) : EReal := Ideal.div one (sai cp ct)
/-- The mixture's centre. -/
def mu (mp cp mt ct : EReal) : EReal :=
  sa cp ct * ((half * Ideal.div one cp) * mp + (half * Ideal.div one ct) * mt)
/-- The trace term of one axis. -/
def tr (cp ct : EReal) : EReal := sai cp ct * (half * cp + half * ct)
/-- From js to the loss. -/
def lossOf (js : EReal) : EReal := one - Ideal.div one (one + js * js)

/-! ## The kernel's row -/

/-- Clamp, then logarithm: the kernel's operand order. -/
def lgK (v : EReal) : EReal := Ideal.log (max v eps)
/-- A centre from two logarithms. -/
def cenK (a b : EReal) : EReal := (b - a) * half + a
/-- A variance from the sum of two logarithms. -/
def covK (s : EReal) : EReal := (s * half) * (s * half) + eps
/-- One axis' contribution, the four terms added left to right. -/
def axisK (mp cp mt ct : EReal) : EReal :=
  ((tr cp ct + ((Ideal.log (sa cp ct) - half * Ideal.log cp) - half * Ideal.log ct))
      + ((half * (mu mp cp mt ct - mp)) * sai cp ct) * (mu mp cp mt ct - mp))
    + ((half * (mu mp cp mt ct - mt)) * sai cp ct) * (mu mp cp mt ct - mt)

/-- The loss of a pair of rows as the kernel computes it. -/
def rowK (x y : Fin 4 → EReal) : EReal :=
  lossOf (half *
    ((axisK (cenK (lgK (x 0)) (lgK (x 2))) (covK (lgK (x 2) + lgK (x 0)))
            (cenK (lgK (y 0)) (lgK (y 2))) (covK (lgK (y 2) + lgK (y 0)))
      + axisK (cenK (lgK (x 1)) (lgK (x 3))) (covK (lgK (x 1) + lgK (x 3)))
              (cenK (lgK (y 1)) (lgK (y 3))) (covK (lgK (y 1) + lgK (y 3))))
     - two))

/-! ## The reference's row -/

/-- Clamp, then logarithm: the reference's operand order. -/
def lgR (v : EReal) : EReal := Ideal.log (max eps v)
def cenR (a b : EReal) : EReal := Ideal.div (b - a) two + a
def covR (s : EReal) : EReal := Ideal.div s two * Ideal.div s two + eps

/-- js as the reference computes it, from the centres and variances of the two axes (x then y):
    every kind of term summed over the two axes onto zero before it is scaled. -/
def jsR (mpx cpx mtx ctx mpy cpy mty cty : EReal) : EReal :=
  half *
    (((((zero + (tr cpx ctx + tr cpy cty))
          + (((zero + (Ideal.log (sa cpx ctx) + Ideal.log (sa cpy cty)))
                - half * (zero + (Ideal.log cpx + Ideal.log cpy)))
              - half * (zero + (Ideal.log ctx + Ideal.log cty))))
        - two)
      + half * (zero + (((mu mpx cpx mtx ctx - mpx) * sai cpx ctx) * (mu mpx cpx mtx ctx - mpx)
                      + ((mu mpy cpy mty cty - mpy) * sai cpy cty) * (mu mpy cpy mty cty - mpy))))
     + half * (zero + (((mu mpx cpx mtx ctx - mtx) * sai cpx ctx) * (mu mpx cpx mtx ctx - mtx)
                     + ((mu mpy cpy mty cty - mty) * sai cpy cty) * (mu mpy cpy mty cty - mty))))

/-- The loss of a pair of rows as the reference computes it. -/
def rowR (x y : Fin 4 → EReal) : EReal :=
  lossOf (jsR
    (cenR (lgR (x 0)) (lgR (x 2))) (covR (lgR (x 2) + lgR (x 0)))
    (cenR (lgR (y 0)) (lgR (y 2))) (covR (lgR (y 2) + lgR (y 0)))
    (cenR (lgR (x 1)) (lgR (x 3))) (covR (lgR (x 1) + lgR (x 3)))
    (cenR (lgR (y 1)) (lgR (y 3))) (covR (lgR (y 1) + lgR (y 3))))

/-! ## From the sum of the rows' losses to the result -/

/-- The mean over all rows, then the loss weight 1. -/
def meanOf (s : EReal) : EReal := one * Ideal.div s rows

end RowLoss

end
-- ==== Proof.LibTiles.lean ====
/-
  A sum over `T · B` consecutive indices, cut into `T` tiles of `B`, and a running total over tiles.

  `sum_tiles`: index `j < T · B` is `J · B + b` for exactly one tile `J < T` and one offset `b < B`, so the sum over all
  `j` is the sum over tiles of the sums over offsets.  `fold_tiles`: the running total that starts at `0 + a 0` and
  adds `a 1`, `a 2`, … in turn is, after `n` further steps, the sum of `a 0 … a n`.
-/
import Mathlib.Algebra.BigOperators.Fin
import Mathlib.Tactic.Ring

open scoped BigOperators

namespace Tiles

/-- The sum over tiles of the sums inside each tile is the sum over all indices. -/
theorem sum_tiles {M : Type*} [AddCommMonoid M] (T B : ℕ) (f : ℕ → M) :
    ∑ J : Fin T, ∑ b : Fin B, f (J.val * B + b.val) = ∑ j : Fin (T * B), f j.val := by
  rw [← (finProdFinEquiv (m := T) (n := B)).sum_comp (fun j => f j.val), Fintype.sum_prod_type]
  refine Finset.sum_congr rfl fun J _ => Finset.sum_congr rfl fun b _ => ?_
  refine congrArg f ?_
  show J.val * B + b.val = b.val + B * J.val
  ring

/-- The running total over tiles, started from `0 + a 0`, is the sum of the tiles' contributions. -/
theorem fold_tiles {M : Type*} [AddCommMonoid M] (a : ℕ → M) (n : ℕ) :
    (Nat.rec (motive := fun _ => M) (0 + a 0) (fun k x => x + a (k + 1)) n) = ∑ J ∈ Finset.range (n + 1), a J := by
  induction n with
  | zero => simp
  | succ k ih =>
    show (Nat.rec (motive := fun _ => M) (0 + a 0) (fun k x => x + a (k + 1)) k) + a (k + 1) = _
    rw [ih, Finset.sum_range_succ _ (k + 1)]

end Tiles
-- ==== Proof.TileSums.lean ====
/-
  Regrouping the sum of all rows' losses.

  The 2²³ rows are cut into 32 consecutive blocks of 262144 rows, and the 32 blocks into 2 halves of 16: row number
  (16 i + j) · 262144 + r is row r of block j of half i, so the sum over all rows is the sum over halves of the sums
  over blocks of the sums inside a block (`sum_rows`). Each half's total is kept in entry (0, 0) of an 8 × 128 tile
  that is zero elsewhere; the sum of all entries of the two tiles is the sum of the two totals (`sum_corner`).
  A block's total is taken over a 1 × B × 1 index set, which is the set of its middle coordinates (`sum_1B1`).
-/
import Idealize.ShloMosaic.Lib.ValueIdx
import proofs.«157217_j4707284156573_1_alg».proof.Proof.LibTiles

noncomputable section

open scoped BigOperators

namespace TileSums

open Idealize.ShloMosaic Idealize.ShloMosaic.ValueIdx

variable {M : Type*} [AddCommMonoid M]

/-- A rank-1 index is its coordinate. -/
def idxEquiv1 {n : Nat} : (⟨1, ![n]⟩ : Shape).Idx ≃ Fin n where
  toFun j := j 0
  invFun a := ix1 a
  left_inv j := (eq_ix1 j).symm
  right_inv _ := rfl

theorem sum_idx1 {n : Nat} (f : (⟨1, ![n]⟩ : Shape).Idx → M) : ∑ j, f j = ∑ a : Fin n, f (ix1 a) := by
  rw [← Equiv.sum_comp (idxEquiv1 (n := n)).symm f]
  rfl

/-- A rank-3 index is the triple of its coordinates. -/
def idxEquiv3 {n0 n1 n2 : Nat} : (⟨3, ![n0, n1, n2]⟩ : Shape).Idx ≃ Fin n0 × Fin n1 × Fin n2 where
  toFun j := (j 0, j 1, j 2)
  invFun p := ix3 p.1 p.2.1 p.2.2
  left_inv j := (eq_ix3 j).symm
  right_inv _ := rfl

theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over a 1 × B × 1 index set only the middle coordinate moves. -/
theorem sum_1B1 {B : Nat} (f : (⟨3, ![1, B, 1]⟩ : Shape).Idx → M) :
    ∑ j, f j = ∑ r : Fin B, f (ix3 (0 : Fin 1) r (0 : Fin 1)) := by
  rw [sum_idx3, Fin.sum_univ_one]
  refine Finset.sum_congr rfl fun r _ => ?_
  rw [Fin.sum_univ_one]

/-- All rows, as 2 halves of 16 blocks of 262144 rows. -/
theorem sum_rows (f : ℕ → M) :
    ∑ i : Fin 2, ∑ j : Fin 16, ∑ r : Fin 262144, f ((i.val * 16 + j.val) * 262144 + r.val)
      = ∑ n : Fin 8388608, f n.val := by
  have h1 : ∑ J : Fin 32, ∑ b : Fin 262144, f (J.val * 262144 + b.val) = ∑ n : Fin 8388608, f n.val :=
    Tiles.sum_tiles 32 262144 f
  have h2 : ∑ i : Fin 2, ∑ j : Fin 16, (fun J : ℕ => ∑ b : Fin 262144, f (J * 262144 + b.val)) (i.val * 16 + j.val)
      = ∑ J : Fin 32, (fun J : ℕ => ∑ b : Fin 262144, f (J * 262144 + b.val)) J.val :=
    Tiles.sum_tiles 2 16 (fun J : ℕ => ∑ b : Fin 262144, f (J * 262144 + b.val))
  exact h2.trans h1

/-- Two 8 × 128 tiles, each zero off its entry (0, 0): the sum of all entries is the sum of the two corners. -/
theorem sum_corner (P : (⟨3, ![2, 8, 128]⟩ : Shape).Idx → M) (A : Fin 2 → M)
    (h0 : ∀ i, P (ix3 i (0 : Fin 8) (0 : Fin 128)) = A i)
    (hz : ∀ (i : Fin 2) (a : Fin 8) (b : Fin 128), (a ≠ 0 ∨ b ≠ 0) → P (ix3 i a b) = 0) :
    ∑ j, P j = ∑ i, A i := by
  rw [sum_idx3]
  refine Finset.sum_congr rfl fun i _ => ?_
  have hrow : ∀ a : Fin 8, a ≠ 0 → ∑ b : Fin 128, P (ix3 i a b) = 0 := fun a ha =>
    Finset.sum_eq_zero fun b _ => hz i a b (Or.inl ha)
  rw [Finset.sum_eq_single (0 : Fin 8) (fun a _ ha => hrow a ha) (fun h => absurd (Finset.mem_univ _) h)]
  rw [Finset.sum_eq_single (0 : Fin 128) (fun b _ hb => hz i 0 b (Or.inr hb)) (fun h => absurd (Finset.mem_univ _) h)]
  exact h0 i

end TileSums

end
-- ==== Proof.KBody.lean ====
/-
  What one run of the kernel's body computes from its two input blocks.

  A block is 262144 consecutive rows of each argument. The body takes the logarithm of every clamped entry (eight
  columns), forms on each row the quantity 1/(1 + js²) (`invTerm`), subtracts it from 1 to get the row's loss, adds
  the losses of all rows of the block, and adds that total to entry (0, 0) of the 8 × 128 accumulator tile.
  Here: `invTerm` at row r is the kernel's row function of row r of the two blocks (`loss_at`), and the value stored
  at entry (0, 0) is what was there plus the block's total (`pay1_at`, `blockSum`).
-/
import proofs.«157217_j4707284156573_1_alg».proof.Proof.Gen.KernelIdeal.Skeleton
import proofs.«157217_j4707284156573_1_alg».proof.Proof.RowLoss
import proofs.«157217_j4707284156573_1_alg».proof.Proof.TileSums
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx

section Generic
variable {F : FTy → Type} [FloatOps F]

/-- The array 1/(1 + js²), one entry per row of the block, as the body's operations compose. -/
def invTerm (x0 x1 : Vec F S262144x4 .f32) : FVec F S262144x1 .f32 :=
  k0_pay28
    (k0_pay14 (k0_pay5 x0) (k0_pay13 x0))
    (k0_pay16 (k0_pay5 x0) (k0_pay7 x0))
    (k0_pay18 (k0_pay9 x1) (k0_pay11 x1))
    (k0_pay20 (k0_pay9 x1) (k0_pay11 x1))
    (k0_pay24 (k0_pay12 x0) (k0_pay15 (k0_pay4 x0) (k0_pay6 x0)) (k0_pay17 (k0_pay8 x1) (k0_pay10 x1))
      (k0_pay19 (k0_pay8 x1) (k0_pay10 x1)) (k0_pay21 (k0_pay4 x0) (k0_pay6 x0)) (k0_pay22 (k0_pay8 x1) (k0_pay10 x1))
      (k0_pay23 (k0_pay4 x0) (k0_pay6 x0) (k0_pay8 x1) (k0_pay10 x1)) (FloatOps.ofBits .f32 0x3F800000#32))
    (k0_pay25 (k0_pay16 (k0_pay5 x0) (k0_pay7 x0)))
    (k0_pay26 (k0_pay20 (k0_pay9 x1) (k0_pay11 x1)))
    (k0_pay27 (k0_pay16 (k0_pay5 x0) (k0_pay7 x0)) (k0_pay20 (k0_pay9 x1) (k0_pay11 x1)))
    (FloatOps.ofBits .f32 0x3F800000#32)

end Generic

/-! ## At the extended reals -/

/-- 1/(1 + js²) from the eight logarithms of a pair of rows (left, top, right, bottom of each). -/
def invOfLogs (L T R B l t r b : EReal) : EReal :=
  Ideal.div RowLoss.one (RowLoss.one +
    (RowLoss.half * ((RowLoss.axisK (RowLoss.cenK L R) (RowLoss.covK (R + L)) (RowLoss.cenK l r) (RowLoss.covK (r + l))
        + RowLoss.axisK (RowLoss.cenK T B) (RowLoss.covK (T + B)) (RowLoss.cenK t b) (RowLoss.covK (t + b))) - RowLoss.two))
    * (RowLoss.half * ((RowLoss.axisK (RowLoss.cenK L R) (RowLoss.covK (R + L)) (RowLoss.cenK l r) (RowLoss.covK (r + l))
        + RowLoss.axisK (RowLoss.cenK T B) (RowLoss.covK (T + B)) (RowLoss.cenK t b) (RowLoss.covK (t + b))) - RowLoss.two)))

/-- The kernel's row is 1 minus that quantity at the rows' logarithms. -/
theorem rowK_eq (x y : Fin 4 → EReal) :
    RowLoss.rowK x y = RowLoss.one - invOfLogs (RowLoss.lgK (x 0)) (RowLoss.lgK (x 1)) (RowLoss.lgK (x 2)) (RowLoss.lgK (x 3))
      (RowLoss.lgK (y 0)) (RowLoss.lgK (y 1)) (RowLoss.lgK (y 2)) (RowLoss.lgK (y 3)) := rfl

/-- Column k of a block, clamped and sent to its logarithm, at row r. -/
theorem logcol (k : Fin 4) (X : Vec Ideal S262144x4 .f32) (h : S262144x4.Slices ![0, k.val] S262144x1) (r : Fin 262144) :
    Ideal.log (max (extractStridedSlice S262144x1 ![0, k.val] X h (ix2 r (0 : Fin 1))) (Ideal.ofBits .f32 0x358637BD#32))
      = RowLoss.lgK (X (ix2 r k)) :=
  congrArg (fun v => Ideal.log (max v (Ideal.ofBits .f32 0x358637BD#32)))
    (extractStridedSlice_apply ![0, k.val] X h (ix2 r (0 : Fin 1)) (ix2 r k)
      (fun a => by match a with | ⟨0, _⟩ => exact (Nat.zero_add _).symm | ⟨1, _⟩ => exact (Nat.add_zero _).symm))

theorem pay4_at (X : Vec Ideal S262144x4 .f32) (r : Fin 262144) : k0_pay4 X (ix2 r (0 : Fin 1)) = RowLoss.lgK (X (ix2 r 0)) :=
  logcol 0 X _ r
theorem pay5_at (X : Vec Ideal S262144x4 .f32) (r : Fin 262144) : k0_pay5 X (ix2 r (0 : Fin 1)) = RowLoss.lgK (X (ix2 r 1)) :=
  logcol 1 X _ r
theorem pay6_at (X : Vec Ideal S262144x4 .f32) (r : Fin 262144) : k0_pay6 X (ix2 r (0 : Fin 1)) = RowLoss.lgK (X (ix2 r 2)) :=
  logcol 2 X _ r
theorem pay7_at (X : Vec Ideal S262144x4 .f32) (r : Fin 262144) : k0_pay7 X (ix2 r (0 : Fin 1)) = RowLoss.lgK (X (ix2 r 3)) :=
  logcol 3 X _ r
theorem pay8_at (X : Vec Ideal S262144x4 .f32) (r : Fin 262144) : k0_pay8 X (ix2 r (0 : Fin 1)) = RowLoss.lgK (X (ix2 r 0)) :=
  logcol 0 X _ r
theorem pay9_at (X : Vec Ideal S262144x4 .f32) (r : Fin 262144) : k0_pay9 X (ix2 r (0 : Fin 1)) = RowLoss.lgK (X (ix2 r 1)) :=
  logcol 1 X _ r
theorem pay10_at (X : Vec Ideal S262144x4 .f32) (r : Fin 262144) : k0_pay10 X (ix2 r (0 : Fin 1)) = RowLoss.lgK (X (ix2 r 2)) :=
  logcol 2 X _ r
theorem pay11_at (X : Vec Ideal S262144x4 .f32) (r : Fin 262144) : k0_pay11 X (ix2 r (0 : Fin 1)) = RowLoss.lgK (X (ix2 r 3)) :=
  logcol 3 X _ r

/-! ### The entrywise operations, one payload at a time

Every operation after the logarithms acts entry by entry, so each of the body's intermediate arrays, read at a row, is
a scalar expression of the arrays it is computed from, read at that row. -/

/-- One axis' four terms from its centres, variances, the two reciprocal variances, the mixture's precision and the
    constant 1, all given: the form in which the body computes them (the reciprocals and the precision are computed once
    and passed on). -/
def axisG (mp cp mt ct ip it s cst : EReal) : EReal :=
  ((s * (RowLoss.half * cp + RowLoss.half * ct)
        + ((Ideal.log (Ideal.div cst s) - RowLoss.half * Ideal.log cp) - RowLoss.half * Ideal.log ct))
      + ((RowLoss.half * (Ideal.div cst s * ((RowLoss.half * ip) * mp + (RowLoss.half * it) * mt) - mp)) * s)
          * (Ideal.div cst s * ((RowLoss.half * ip) * mp + (RowLoss.half * it) * mt) - mp))
    + ((RowLoss.half * (Ideal.div cst s * ((RowLoss.half * ip) * mp + (RowLoss.half * it) * mt) - mt)) * s)
        * (Ideal.div cst s * ((RowLoss.half * ip) * mp + (RowLoss.half * it) * mt) - mt)

/-- With the reciprocals and the precision at their values this is the axis' contribution. -/
theorem axisG_eq (mp cp mt ct : EReal) :
    axisG mp cp mt ct (Ideal.div RowLoss.one cp) (Ideal.div RowLoss.one ct)
        (RowLoss.half * Ideal.div RowLoss.one cp + RowLoss.half * Ideal.div RowLoss.one ct) RowLoss.one
      = RowLoss.axisK mp cp mt ct := by
  unfold axisG RowLoss.axisK RowLoss.mu RowLoss.tr RowLoss.sa RowLoss.sai
  rfl

theorem one_word : FloatOps.ofBits (F := Ideal) .f32 0x3F800000#32 = RowLoss.one := rfl

section At
variable (X Y : Vec Ideal S262144x4 .f32) (a b : FVec Ideal S262144x1 .f32) (j : S262144x1.Idx)

theorem pay12_at : k0_pay12 X j = RowLoss.cenK (k0_pay4 X j) (k0_pay6 X j) := rfl
theorem pay13_at : k0_pay13 X j = k0_pay7 X j - k0_pay5 X j := rfl
theorem pay14_at : k0_pay14 a b j = b j * RowLoss.half + a j := rfl
theorem pay15_at : k0_pay15 a b j = RowLoss.covK (b j + a j) := rfl
theorem pay16_at : k0_pay16 a b j = RowLoss.covK (a j + b j) := rfl
theorem pay17_at : k0_pay17 a b j = RowLoss.cenK (a j) (b j) := rfl
theorem pay18_at : k0_pay18 a b j = RowLoss.cenK (a j) (b j) := rfl
theorem pay19_at : k0_pay19 a b j = RowLoss.covK (b j + a j) := rfl
theorem pay20_at : k0_pay20 a b j = RowLoss.covK (a j + b j) := rfl
theorem pay21_at : k0_pay21 a b j = Ideal.div RowLoss.one (k0_pay15 a b j) := rfl
theorem pay22_at : k0_pay22 a b j = Ideal.div RowLoss.one (k0_pay19 a b j) := rfl
theorem pay23_at (a' b' : FVec Ideal S262144x1 .f32) :
    k0_pay23 a b a' b' j = RowLoss.half * k0_pay21 a b j + RowLoss.half * k0_pay22 a' b' j := rfl
theorem pay25_at : k0_pay25 a j = Ideal.div RowLoss.one (a j) := rfl
theorem pay26_at : k0_pay26 a j = Ideal.div RowLoss.one (a j) := rfl
theorem pay27_at : k0_pay27 a b j = RowLoss.half * k0_pay25 a j + RowLoss.half * k0_pay26 b j := rfl

theorem pay24_at (v40 v50 v60 v70 v78 v80 v85 : FVec Ideal S262144x1 .f32) (cst : EReal) :
    k0_pay24 v40 v50 v60 v70 v78 v80 v85 cst j
      = axisG (v40 j) (v50 j) (v60 j) (v70 j) (v78 j) (v80 j) (v85 j) cst := rfl

theorem pay28_at (v44 v56 v64 v76 v123 v125 v127 v132 : FVec Ideal S262144x1 .f32) (cst : EReal) :
    k0_pay28 v44 v56 v64 v76 v123 v125 v127 v132 cst j
      = Ideal.div RowLoss.one (RowLoss.one +
          (RowLoss.half * ((v123 j + axisG (v44 j) (v56 j) (v64 j) (v76 j) (v125 j) (v127 j) (v132 j) cst) - RowLoss.two))
          * (RowLoss.half * ((v123 j + axisG (v44 j) (v56 j) (v64 j) (v76 j) (v125 j) (v127 j) (v132 j) cst) - RowLoss.two))) := rfl

end At

/-- At a row, `invTerm` is `invOfLogs` of the eight columns there. -/
theorem invTerm_logs (X Y : Vec Ideal S262144x4 .f32) (j : S262144x1.Idx) :
    invTerm (F := Ideal) X Y j
      = invOfLogs (k0_pay4 X j) (k0_pay5 X j) (k0_pay6 X j) (k0_pay7 X j) (k0_pay8 Y j) (k0_pay9 Y j) (k0_pay10 Y j) (k0_pay11 Y j) := by
  unfold invTerm
  simp only [pay28_at, pay24_at, pay27_at, pay25_at, pay26_at, pay23_at, pay21_at, pay22_at, pay12_at, pay14_at, pay13_at,
    pay15_at, pay16_at, pay17_at, pay18_at, pay19_at, pay20_at, one_word]
  unfold invOfLogs
  rw [← axisG_eq, ← axisG_eq]
  rfl

/-- The loss of row r of the block: 1 minus `invTerm` there is the kernel's row function of the two rows. -/
theorem loss_at (X Y : Vec Ideal S262144x4 .f32) (r : Fin 262144) :
    RowLoss.one - invTerm (F := Ideal) X Y (ix2 r (0 : Fin 1)) = RowLoss.rowK (fun k => X (ix2 r k)) (fun k => Y (ix2 r k)) := by
  rw [invTerm_logs, pay4_at, pay5_at, pay6_at, pay7_at, pay8_at, pay9_at, pay10_at, pay11_at, rowK_eq]

/-- The total of a block's losses. -/
def blockSum (X Y : Vec Ideal S262144x4 .f32) : EReal :=
  ∑ r : Fin 262144, RowLoss.rowK (fun k => X (ix2 r k)) (fun k => Y (ix2 r k))

end Cert.KernelIdeal.Body

end
-- ==== Proof.KPay1.lean ====
/-
  What the body adds to the accumulator's entry (0, 0).

  The row losses 1 - V (V the array 1/(1 + js²)) are laid out as a 1 × 262144 × 1 array and summed over both long
  axes into a one-entry array; that entry is read back through a 1 × 1 × 1 view and added to what the accumulator's
  entry (0, 0) held. So the stored value is the old entry plus the block's total loss.
-/
import proofs.«157217_j4707284156573_1_alg».proof.Proof.KBody

noncomputable section

open scoped BigOperators

namespace Cert.KernelIdeal.Body

open Cert.KernelIdeal Cert.KernelIdeal.Gen Idealize.ShloMosaic Idealize.ShloMosaic.ValueIdx

/-- Entry (0, r, 0) of the 1 × 262144 × 1 layout is entry (r, 0) of the column. -/
theorem cast_at (W : FVec Ideal S262144x1 .f32) (r : Fin 262144) :
    shapeCast S1x262144x1 W shapeCasts_S262144x1_S1x262144x1 (ix3 (0 : Fin 1) r (0 : Fin 1)) = W (ix2 r (0 : Fin 1)) :=
  shapeCast_apply W shapeCasts_S262144x1_S1x262144x1 (ix3 (0 : Fin 1) r (0 : Fin 1)) (ix2 r (0 : Fin 1))
    (by rw [Shape.rowMajor_val_two, Shape.rowMajor_val_three]; show r.val * 1 + 0 = (0 * 262144 + r.val) * 1 + 0; omega)

/-- Summing over both long axes into one entry is summing over every index. -/
theorem red_at (Z : FVec Ideal S1x262144x1 .f32) :
    multiReduction .add [1, 2] S1 Z 0x00000000#32 reduces_S1x262144x1_S1 (.inl rfl) rfl (ix1 (0 : Fin 1))
      = ∑ i : S1x262144x1.Idx, Z i :=
  Ideal.multiReduction_add_total Z _ reduces_S1x262144x1_S1 (fun b => by match b with | ⟨0, _⟩ => rfl) (.inl rfl) rfl (ix1 (0 : Fin 1))

/-- The one entry of a one-entry array, read through the 1 × 1 × 1 view. -/
theorem ext_at (Z : FVec Ideal S1 .f32) :
    extractAt ![0, 0, 0] (shapeCast S1x1x1 Z shapeCasts_S1_S1x1x1) inpos_S1x1x1_p0_0_0 = Z (ix1 (0 : Fin 1)) := by
  unfold extractAt
  exact shapeCast_apply Z shapeCasts_S1_S1x1x1 _ (ix1 (0 : Fin 1)) (by rw [Shape.rowMajor_val_one, Shape.rowMajor_val_three]; rfl)

/-- The value the body stores at entry (0, 0): what it read there plus the total over the block's rows of 1 - V. -/
theorem pay1_at (V : FVec Ideal S262144x1 .f32) (v188 : Vec Ideal S1x1 .f32) (j : S1x1.Idx) :
    k0_pay1 V v188 j = v188 j + ∑ r : Fin 262144, (RowLoss.one - V (ix2 r (0 : Fin 1))) := by
  unfold k0_pay1
  rw [shapeCast_self]
  exact congrArg (v188 j + ·)
    ((ext_at _).trans ((red_at _).trans ((TileSums.sum_1B1 _).trans (Finset.sum_congr rfl fun r _ => cast_at _ r))))

/-- With V the body's own array, the stored value is the old entry plus the block's total loss. -/
theorem pay1_invTerm (X Y : Vec Ideal S262144x4 .f32) (v188 : Vec Ideal S1x1 .f32) (j : S1x1.Idx) :
    k0_pay1 (invTerm (F := Ideal) X Y) v188 j = v188 j + blockSum X Y := by
  rw [pay1_at]
  exact congrArg (v188 j + ·) (Finset.sum_congr rfl fun r _ => loss_at X Y r)

/-- The zero fill of the accumulator tile. -/
theorem pay3_at (j : S8x128.Idx) : k0_pay3 (F := Ideal) j = RowLoss.zero := by
  unfold k0_pay3
  rw [shapeCast_self]
  rfl

end Cert.KernelIdeal.Body

end
-- ==== Proof.KCorner.lean ====
/-
  The accumulator tile's entry (0, 0).

  The body updates the 8 × 128 accumulator through the 1 × 1 rectangle at offset (0, 0). That rectangle holds exactly the
  entry (0, 0): a store through it changes that entry to the stored value and leaves every other entry of the tile as
  it was.
-/
import proofs.«157217_j4707284156573_1_alg».proof.Proof.Gen.KernelIdeal.Skeleton
import Idealize.ShloMosaic.Lib.Pipeline.Value
import Idealize.ShloMosaic.Lib.ValueIdx
import Idealize.ShloMosaic.Lib.Writes
import Idealize.ShloMosaic.Lib.Pipeline.FrameBody

noncomputable section

namespace Cert.KernelIdeal.Corner

open Cert.KernelIdeal Cert.KernelIdeal.Gen Idealize.ShloMosaic Idealize.ShloMosaic.ValueIdx

/-- The 1 × 1 rectangle at the tile's corner. -/
abbrev r11 : Rect S8x128 := Rect.unit ![0, 0] ![1, 1] inb_S8x128_S1x1_0_0

/-- Its one index. -/
abbrev x00 : (r11).shape.Idx := ix2 (0 : Fin 1) (0 : Fin 1)

/-- Every index of the rectangle is sent to the tile's entry (0, 0). -/
theorem r11_emb (x : (r11).shape.Idx) : (r11).emb x = ix2 (0 : Fin 8) (0 : Fin 128) := by
  funext a
  apply Fin.ext
  match a with
  | ⟨0, _⟩ => have h : (x 0).val < 1 := (x 0).isLt; show 0 + 1 * (x 0).val = 0; omega
  | ⟨1, _⟩ => have h : (x 1).val < 1 := (x 1).isLt; show 0 + 1 * (x 1).val = 0; omega

/-- Any other entry of the tile is outside it. -/
theorem not_mem_r11 (a : Fin 8) (b : Fin 128) (h : a ≠ 0 ∨ b ≠ 0) : ix2 a b ∉ (r11).set := by
  rw [Rect.mem_set_unit]
  intro hm
  rcases h with h | h
  · have h0 := (hm 0).2
    exact h (Fin.ext (by have : a.val < 0 + 1 := h0; show a.val = 0; omega))
  · have h1 := (hm 1).2
    exact h (Fin.ext (by have : b.val < 0 + 1 := h1; show b.val = 0; omega))

section Store
variable {Val : EltTy → Type} {sig' : RefSig} {κ : Kind} {sp : Space}
variable (v : View sig' κ sp S8x128 .f32) (f : v.ty.Contents Val) (w : (r11).shape.Idx → Val .f32)

/-- After one store through the corner rectangle, entry (0, 0) reads the stored value; -/
theorem read_store_corner : v.read Val (v.writes Val f [⟨r11, w⟩]) (ix2 (0 : Fin 8) (0 : Fin 128)) = w x00 := by
  have h := View.read_writes_cons_emb v f r11 w [] x00
  rwa [r11_emb] at h

/-- every other entry reads what it held. -/
theorem read_store_off (a : Fin 8) (b : Fin 128) (h : a ≠ 0 ∨ b ≠ 0) :
    v.read Val (v.writes Val f [⟨r11, w⟩]) (ix2 a b) = v.read Val f (ix2 a b) :=
  View.read_writes_apply_of_forall_not_mem v f (ix2 a b) [⟨r11, w⟩]
    (fun p hp => by rw [List.mem_singleton.mp hp]; exact not_mem_r11 a b h)

end Store

section Canon
variable {Val : EltTy → Type} [∀ e, Nonempty (Val e)]
variable (w1 : (r11).shape.Idx → Val .f32) (w2 : S8x128.Idx → Val .f32)

/-- The whole-tile rectangle. -/
abbrev rAll : Rect S8x128 := Rect.unit ![0, 0] S8x128.size inb_S8x128_S8x128_0_0

theorem zeros2 : (![0, 0] : Fin 2 → Nat) = fun _ => 0 := by
  funext a; match a with | ⟨0, _⟩ => rfl | ⟨1, _⟩ => rfl

/-- A fill of the whole tile covers every entry. -/
theorem cover_all (y : S8x128.Idx) :
    ∃ p ∈ [(⟨rAll, w2⟩ : View.Piece Val S8x128 .f32)], y ∈ p.1.set :=
  ⟨⟨rAll, w2⟩, List.mem_singleton_self _, View.mem_set_unit_zero (S := S8x128) zeros2 inb_S8x128_S8x128_0_0 y⟩

/-- A fill of the whole tile followed by a store at the corner: the corner reads the later store, -/
theorem canon_two_corner :
    View.canon [(⟨r11, w1⟩ : View.Piece Val S8x128 .f32), ⟨rAll, w2⟩] (ix2 (0 : Fin 8) (0 : Fin 128)) = w1 x00 := by
  have h := View.canon_cons_emb (Val := Val) r11 w1 [(⟨rAll, w2⟩ : View.Piece Val S8x128 .f32)] x00
  rwa [r11_emb] at h

/-- every other entry reads the fill. -/
theorem canon_two_off (a : Fin 8) (b : Fin 128) (h : a ≠ 0 ∨ b ≠ 0) :
    View.canon [(⟨r11, w1⟩ : View.Piece Val S8x128 .f32), ⟨rAll, w2⟩] (ix2 a b) = w2 (ix2 a b) := by
  rw [View.canon_cons_of_not_mem (⟨r11, w1⟩ : View.Piece Val S8x128 .f32) [(⟨rAll, w2⟩ : View.Piece Val S8x128 .f32)] (not_mem_r11 a b h),
    View.canon_unit_zero (S := S8x128) zeros2]

end Canon

end Cert.KernelIdeal.Corner

end
-- ==== Proof.KPieces.lean ====
/-
  What one run of the body leaves behind, case by case.

  The body meets three cases over the grid; the first point of a half is in KPieceA. At an inner point (case B) it only adds the block's total to entry (0, 0) of what the point before
  left. At the last point of a half (case C) it does the same and then copies the tile into the output block.
-/
import proofs.«157217_j4707284156573_1_alg».proof.Proof.Gen.KernelIdeal.Frame
import proofs.«157217_j4707284156573_1_alg».proof.Proof.KPay1
import proofs.«157217_j4707284156573_1_alg».proof.Proof.KCorner

set_option maxRecDepth 16384

noncomputable section

namespace Cert.KernelIdeal.Pieces

open Cert.KernelIdeal Cert.KernelIdeal.Gen Cert.KernelIdeal.Body Cert.KernelIdeal.Corner
open Idealize.ShloMosaic Idealize.ShloMosaic.TcCoe Idealize.ShloMosaic.Tactic Idealize.ShloMosaic.ValueIdx
open Idealize.SL Idealize.SL.Sem

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-- The value stored at the corner, read at the rectangle's one index: the old corner plus the block's total. -/
theorem corner_value (x0 x1 : Vec Ideal S262144x4 .f32) (xs : S8x128.Idx → EReal) :
    k0_pay1 (invTerm (F := Ideal) x0 x1) (View.ld xs r11) x00 = xs (ix2 (0 : Fin 8) (0 : Fin 128)) + blockSum x0 x1 := by
  rw [pay1_invTerm]
  exact congrArg (· + blockSum x0 x1) (congrArg xs (r11_emb x00))

/-! ## Case B: an inner point -/

theorem sout_B_form (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i) (x0 x1 : Vec Ideal S262144x4 .f32) (xs0 : Vec Ideal S8x128 .f32) :
    sout0_B_0 (F := Ideal) c i arg2 harg2 arg3 harg3 arg4 harg4 arg5 harg5 hc0 hc1 x0 x1 xs0
      = arg5.view.read (Elt Ideal) (arg5.view.writes (Elt Ideal) (harg5.unread xs0)
          [⟨r11, k0_pay1 (invTerm (F := Ideal) x0 x1) (View.ld xs0 r11)⟩]) := by
  unfold sout0_B_0
  unfold kernelRun0_B
  dsimp only
  sl_unfold_words
  simp only [View.readAt_eq_ld, harg2.read_unread, harg3.read_unread, harg5.read_unread, View.ld_unit_zero (S := S262144x4) hz2]
  rfl

/-- Entry (0, 0) grows by the block's total; -/
theorem sout_B_corner (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i) (x0 x1 : Vec Ideal S262144x4 .f32) (xs0 : Vec Ideal S8x128 .f32) :
    sout0_B_0 (F := Ideal) c i arg2 harg2 arg3 harg3 arg4 harg4 arg5 harg5 hc0 hc1 x0 x1 xs0 (ix2 (0 : Fin 8) (0 : Fin 128))
      = xs0 (ix2 (0 : Fin 8) (0 : Fin 128)) + blockSum x0 x1 := by
  rw [sout_B_form]
  exact (read_store_corner arg5.view (harg5.unread xs0) _).trans (corner_value x0 x1 xs0)

/-- every other entry is kept. -/
theorem sout_B_off (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : ¬cond0_1 i) (x0 x1 : Vec Ideal S262144x4 .f32) (xs0 : Vec Ideal S8x128 .f32)
    (a : Fin 8) (b : Fin 128) (h : a ≠ 0 ∨ b ≠ 0) :
    sout0_B_0 (F := Ideal) c i arg2 harg2 arg3 harg3 arg4 harg4 arg5 harg5 hc0 hc1 x0 x1 xs0 (ix2 a b) = xs0 (ix2 a b) := by
  rw [sout_B_form]
  exact (read_store_off arg5.view (harg5.unread xs0) _ a b h).trans (congrFun (harg5.read_unread xs0) (ix2 a b))

/-! ## Case C: the last point of a half -/

theorem sout_C_form (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i) (x0 x1 : Vec Ideal S262144x4 .f32) (xs0 : Vec Ideal S8x128 .f32) :
    sout0_C_0 (F := Ideal) c i arg2 harg2 arg3 harg3 arg4 harg4 arg5 harg5 hc0 hc1 x0 x1 xs0
      = arg5.view.read (Elt Ideal) (arg5.view.writes (Elt Ideal) (harg5.unread xs0)
          [⟨r11, k0_pay1 (invTerm (F := Ideal) x0 x1) (View.ld xs0 r11)⟩]) := by
  unfold sout0_C_0
  unfold kernelRun0_C
  dsimp only
  sl_unfold_words
  simp only [View.readAt_eq_ld, harg2.read_unread, harg3.read_unread, harg5.read_unread, View.ld_unit_zero (S := S262144x4) hz2]
  rfl

theorem sout_C_corner (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i) (x0 x1 : Vec Ideal S262144x4 .f32) (xs0 : Vec Ideal S8x128 .f32) :
    sout0_C_0 (F := Ideal) c i arg2 harg2 arg3 harg3 arg4 harg4 arg5 harg5 hc0 hc1 x0 x1 xs0 (ix2 (0 : Fin 8) (0 : Fin 128))
      = xs0 (ix2 (0 : Fin 8) (0 : Fin 128)) + blockSum x0 x1 := by
  rw [sout_C_form]
  exact (read_store_corner arg5.view (harg5.unread xs0) _).trans (corner_value x0 x1 xs0)

theorem sout_C_off (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i) (x0 x1 : Vec Ideal S262144x4 .f32) (xs0 : Vec Ideal S8x128 .f32)
    (a : Fin 8) (b : Fin 128) (h : a ≠ 0 ∨ b ≠ 0) :
    sout0_C_0 (F := Ideal) c i arg2 harg2 arg3 harg3 arg4 harg4 arg5 harg5 hc0 hc1 x0 x1 xs0 (ix2 a b) = xs0 (ix2 a b) := by
  rw [sout_C_form]
  exact (read_store_off arg5.view (harg5.unread xs0) _ a b h).trans (congrFun (harg5.read_unread xs0) (ix2 a b))

/-- The 8 × 128 tile laid out as a 1 × 8 × 128 block: entry (0, a, b) is entry (a, b). -/
theorem pay2_at (v : Vec Ideal S8x128 .f32) (a : Fin 8) (b : Fin 128) :
    k0_pay2 (F := Ideal) v (ix3 (0 : Fin 1) a b) = v (ix2 a b) := by
  unfold k0_pay2
  exact shapeCast_apply v shapeCasts_S8x128_S1x8x128 (ix3 (0 : Fin 1) a b) (ix2 a b)
    (by rw [Shape.rowMajor_val_two, Shape.rowMajor_val_three]; show a.val * 128 + b.val = (0 * 8 + a.val) * 128 + b.val; omega)

/-- The output block is the tile the case leaves in the accumulator. -/
theorem out_C_form (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i) (x0 x1 : Vec Ideal S262144x4 .f32) (xs0 : Vec Ideal S8x128 .f32) :
    out0_C_2 (F := Ideal) c i arg2 harg2 arg3 harg3 arg4 harg4 arg5 harg5 hc0 hc1 x0 x1 xs0
      = k0_pay2 (F := Ideal) (sout0_C_0 (F := Ideal) c i arg2 harg2 arg3 harg3 arg4 harg4 arg5 harg5 hc0 hc1 x0 x1 xs0) := by
  rw [sout_C_form]
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1x8x128) hz3]
  simp only [View.readAt_eq_ld, harg2.read_unread, harg3.read_unread, harg5.read_unread, View.ld_unit_zero (S := S262144x4) hz2,
    View.ld_unit_zero (S := S8x128) hz2]
  rfl

theorem out_C_at (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : ¬cond0_0 i) (hc1 : cond0_1 i) (x0 x1 : Vec Ideal S262144x4 .f32) (xs0 : Vec Ideal S8x128 .f32)
    (a : Fin 8) (b : Fin 128) :
    out0_C_2 (F := Ideal) c i arg2 harg2 arg3 harg3 arg4 harg4 arg5 harg5 hc0 hc1 x0 x1 xs0 (ix3 (0 : Fin 1) a b)
      = sout0_C_0 (F := Ideal) c i arg2 harg2 arg3 harg3 arg4 harg4 arg5 harg5 hc0 hc1 x0 x1 xs0 (ix2 a b) := by
  rw [out_C_form]
  exact pay2_at _ a b

end Cert.KernelIdeal.Pieces

end
-- ==== Proof.KPieceA.lean ====
/-
  The first point of a half.

  There the body fills the accumulator tile with zeros, reads entry (0, 0) back (a zero) and stores that plus the block's
  total loss at entry (0, 0): the tile ends at zero plus the total in entry (0, 0) and zero in every other entry.
-/
import proofs.«157217_j4707284156573_1_alg».proof.Proof.Gen.KernelIdeal.Frame
import proofs.«157217_j4707284156573_1_alg».proof.Proof.KPay1
import proofs.«157217_j4707284156573_1_alg».proof.Proof.KCorner
import proofs.«157217_j4707284156573_1_alg».proof.Proof.KPieces

set_option maxRecDepth 16384

noncomputable section

namespace Cert.KernelIdeal.Pieces

open Cert.KernelIdeal Cert.KernelIdeal.Gen Cert.KernelIdeal.Body Cert.KernelIdeal.Corner
open Idealize.ShloMosaic Idealize.ShloMosaic.TcCoe Idealize.ShloMosaic.Tactic Idealize.ShloMosaic.ValueIdx
open Idealize.SL Idealize.SL.Sem

theorem sout_A_form (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i) (x0 x1 : Vec Ideal S262144x4 .f32) :
    sout0_A_0 (F := Ideal) c i arg2 harg2 arg3 harg3 arg4 harg4 arg5 harg5 hc0 hc1 x0 x1
      = View.canon [(⟨r11, k0_pay1 (invTerm (F := Ideal) x0 x1) (View.ld (k0_pay3 (F := Ideal)) r11)⟩ : View.Piece (Elt Ideal) S8x128 .f32),
          ⟨rAll, k0_pay3 (F := Ideal)⟩] := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.readCov_eq_canon_ld arg5.view [(⟨rAll, k0_pay3 (F := Ideal)⟩ : View.Piece (Elt Ideal) S8x128 .f32)] r11
      (cover_all (Val := Elt Ideal) (k0_pay3 (F := Ideal))),
    View.canon_unit_zero (S := S8x128) zeros2]
  simp only [View.readAt_eq_ld, harg2.read_unread, harg3.read_unread, View.ld_unit_zero (S := S262144x4) hz2]
  rfl

/-- Entry (0, 0) holds zero plus the block's total; -/
theorem sout_A_corner (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i) (x0 x1 : Vec Ideal S262144x4 .f32) :
    sout0_A_0 (F := Ideal) c i arg2 harg2 arg3 harg3 arg4 harg4 arg5 harg5 hc0 hc1 x0 x1 (ix2 (0 : Fin 8) (0 : Fin 128)) = RowLoss.zero + blockSum x0 x1 := by
  rw [sout_A_form]
  exact (canon_two_corner (Val := Elt Ideal) _ _).trans
    ((corner_value x0 x1 (k0_pay3 (F := Ideal))).trans (congrArg (· + blockSum x0 x1) (pay3_at _)))

/-- every other entry holds zero. -/
theorem sout_A_off (c : Dev nD) (i : grid0.Coords) (arg2 : Memref sig .tc .vmem S262144x4 .f32) (harg2 : arg2.IsWhole) (arg3 : Memref sig .tc .vmem S262144x4 .f32) (harg3 : arg3.IsWhole) (arg4 : Memref sig .tc .vmem S1x8x128 .f32) (harg4 : arg4.IsWhole) (arg5 : Memref sig .tc .vmem S8x128 .f32) (harg5 : arg5.IsWhole) (hc0 : cond0_0 i) (hc1 : ¬cond0_1 i) (x0 x1 : Vec Ideal S262144x4 .f32)
    (a : Fin 8) (b : Fin 128) (h : a ≠ 0 ∨ b ≠ 0) :
    sout0_A_0 (F := Ideal) c i arg2 harg2 arg3 harg3 arg4 harg4 arg5 harg5 hc0 hc1 x0 x1 (ix2 a b) = RowLoss.zero := by
  rw [sout_A_form]
  exact (canon_two_off (Val := Elt Ideal) _ _ a b h).trans (pay3_at _)

end Cert.KernelIdeal.Pieces

end
-- ==== Proof.KBlocks.lean ====
/-
  Which rows of an argument a grid point stages.

  The kernel walks its two arguments, arrays of 2²³ rows of four entries, in 32 blocks of 262144 rows: the grid is 2 × 16
  and the point (i, j) takes block i·16 + j on the row axis and block 0 on the column axis, so the point numbered
  t = i·16 + j stages rows t·262144 … t·262144 + 262143. A block's entry (r, k) is therefore the array's entry
  (t·262144 + r, k).
-/
import proofs.«157217_j4707284156573_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.ValueIdx Idealize.SL.Sem

/-- The printed index maps, decided once over the 32 grid points: on the row axis the block index is the point's number,
    on the column axis it is 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Grid point t stages rows t·262144 … t·262144 + 262143 of the first argument: entry (r, k) of its block is entry (t·262144 + r, k) of the array. -/
theorem iblk0_row (m : (ℓ : Loc nD τ sig) → Buf (Elt Ideal) ℓ) (c : Dev nD) (t : Fin cfg0.N) (r : Fin 262144) (k : Fin 4)
    (n : Fin 8388608) (hn : n.val = t.val * 262144 + r.val) :
    (iblk (F := Ideal) m c 0 t : S262144x4.Idx → EReal) (ix2 r k)
      = (m ((c.tc : Thread nD τ).loc main_arg0) : S8388608x4.Idx → EReal) (ix2 n k) := by
  obtain ⟨e0, e1, -, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 262144 + 1 * r.val = n.val; omega
  | ⟨1, _⟩ => show win0_0.index t (1 : Fin 2) * 4 + 1 * k.val = k.val; omega

/-- The same for the second argument. -/
theorem iblk1_row (m : (ℓ : Loc nD τ sig) → Buf (Elt Ideal) ℓ) (c : Dev nD) (t : Fin cfg0.N) (r : Fin 262144) (k : Fin 4)
    (n : Fin 8388608) (hn : n.val = t.val * 262144 + r.val) :
    (iblk (F := Ideal) m c 1 t : S262144x4.Idx → EReal) (ix2 r k)
      = (m ((c.tc : Thread nD τ).loc main_arg1) : S8388608x4.Idx → EReal) (ix2 n k) := by
  obtain ⟨-, -, e0, e1⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 2) * 262144 + 1 * r.val = n.val; omega
  | ⟨1, _⟩ => show win0_1.index t (1 : Fin 2) * 4 + 1 * k.val = k.val; omega

end Cert.KernelIdeal.Blocks

end
-- ==== Proof.KOut.lean ====
/-
  The output array from the blocks written back.

  The output is an array of two tiles of 8 × 128 entries. The grid's 32 points fall into two halves of 16; every point of
  half i works on tile i (block index i on the tile axis, 0 on the other two), but only the last point of a half,
  t = 16·i + 15, writes its staging block back. The blocks of those two points are the two tiles, so they cover the
  array: if at each of them the staging block holds tile i of a function G of the array's index, the array ends
  holding G.
-/
import proofs.«157217_j4707284156573_1_alg».proof.Proof.Gen.KernelIdeal.Frame
import Idealize.ShloMosaic.Lib.Pipeline.Value
import Idealize.ShloMosaic.Lib.ValueIdx

noncomputable section

namespace Cert.KernelIdeal.Out

open Cert.KernelIdeal Cert.KernelIdeal.Gen Idealize.ShloMosaic Idealize.ShloMosaic.ValueIdx Idealize.SL.Sem

/-- The output's printed index map, decided once over the 32 grid points: on the tile axis the block index is the half
    the point lies in, on the other two axes it is 0. -/
theorem idx_facts : ∀ t : Fin cfg0.N, win0_2.index t (0 : Fin 3) = t.val / 16 ∧ win0_2.index t (1 : Fin 3) = 0
    ∧ win0_2.index t (2 : Fin 3) = 0 :=
  (by decide +kernel : ∀ t : Fin grid0.N, _)

/-- An index of the array is in point t's block iff each coordinate is in the block's range on its axis. -/
theorem mem_blk (t : Fin cfg0.N) (i : S2x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- What a writing point writes back is its tile of G. -/
theorem flushed_eq (m : (ℓ : Loc nD τ sig) → Buf (Elt Ideal) ℓ) (c : Dev nD) (G : S2x8x128.Idx → EReal)
    (hG : ∀ (t : Fin cfg0.N) (i : Fin 2), t.val = 16 * i.val + 15 → ∀ (a : Fin 8) (b : Fin 128),
        ((outsAt0 (F := Ideal) m c t.val t.isLt).1 : S1x8x128.Idx → EReal) (ix3 (0 : Fin 1) a b) = G (ix3 i a b))
    (t : Fin cfg0.N) (hf : (cfg0.win 2).flush t = true) :
    (dats (F := Ideal) m 0 c).flushed 2 t = ((cfg0.win 2).blk t).view.read (Elt Ideal) G := by
  show (cfg0.win 2).cut (grid0.coords t) ((dats (F := Ideal) m 0 c).after 2 t) = _
  rw [after0_2]
  have h15 : t.val % 16 = 15 := (flush0_2 t).mp hf
  have hN : t.val < 32 := lt_of_lt_of_eq t.isLt (show cfg0.N = 32 from N_0)
  obtain ⟨e0, e1, e2⟩ := idx_facts t
  funext j
  obtain ⟨z, a, b, rfl⟩ : ∃ (z : Fin 1) (a : Fin 8) (b : Fin 128), j = ix3 z a b := ⟨j 0, j 1, j 2, eq_ix3 j⟩
  obtain rfl : z = 0 := Subsingleton.elim _ _
  rw [View.read_apply]
  show ((outsAt0 (F := Ideal) m c t.val t.isLt).1 : S1x8x128.Idx → EReal) (ix3 (0 : Fin 1) a b) = _
  refine (hG t ⟨t.val / 16, by omega⟩ (by show t.val = 16 * (t.val / 16) + 15; omega) a b).trans ?_
  refine congrArg G ?_
  funext d
  apply Fin.ext
  match d with
  | ⟨0, _⟩ => show t.val / 16 = win0_2.index t (0 : Fin 3) * 1 + 1 * 0; omega
  | ⟨1, _⟩ => show a.val = win0_2.index t (1 : Fin 3) * 8 + 1 * a.val; omega
  | ⟨2, _⟩ => show b.val = win0_2.index t (2 : Fin 3) * 128 + 1 * b.val; omega

/-- Every index of the array lies in the block of a writing point: entry (i, a, b) in that of point 16·i + 15. -/
theorem cover (i : S2x8x128.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 128 := (i 2).isLt
  have hN : cfg0.N = 32 := N_0
  obtain ⟨t, ht⟩ : ∃ t : Fin cfg0.N, t.val = 16 * (i 0).val + 15 := ⟨⟨16 * (i 0).val + 15, by omega⟩, rfl⟩
  obtain ⟨e0, e1, e2⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- The output array [2, 8, 128] is written back only at the last point of each half (points 15 and 31: t = 16 i + 15 writes tile i). If at those points the staging block holds tile i of G, the array ends holding G. -/
theorem out_array (m : (ℓ : Loc nD τ sig) → Buf (Elt Ideal) ℓ) (c : Dev nD) (G : S2x8x128.Idx → EReal)
    (hG : ∀ (t : Fin cfg0.N) (i : Fin 2), t.val = 16 * i.val + 15 → ∀ (a : Fin 8) (b : Fin 128),
        ((outsAt0 (F := Ideal) m c t.val t.isLt).1 : S1x8x128.Idx → EReal) (ix3 (0 : Fin 1) a b) = G (ix3 i a b)) :
    ((dats (F := Ideal) m 0 c).arrAt 2 cfg0.N : S2x8x128.Idx → EReal) = G :=
  (dats (F := Ideal) m 0 c).arrAt_eq_of_cover 2 G (fun t hf => flushed_eq m c G hG t hf) cover

end Cert.KernelIdeal.Out

end
-- ==== Proof.RowLossConsts.lean ====
/-
  The float words of the two programs, read as the real numbers they denote.

  Four of them are dyadic and are read exactly: 0, 1/2, 1 and 2. The fifth, the clamp's floor, is only ever
  used through one fact: it is a positive real number.
-/
import proofs.«157217_j4707284156573_1_alg».proof.Proof.RowLoss

noncomputable section

namespace RowLoss

open Idealize.ShloMosaic

/-- The zero word denotes the real 0. -/
theorem zero_eq : zero = ((0 : ℝ) : EReal) := by
  simp [zero, Ideal.ofBits, Ideal.ieee]

/-- The word of 0.5 denotes the real 1/2. -/
theorem half_eq : half = ((1 / 2 : ℝ) : EReal) := by
  simp [half, Ideal.ofBits, Ideal.ieee, -EReal.coe_mul]; norm_num

/-- The word of 1.0 denotes the real 1. -/
theorem one_eq : one = ((1 : ℝ) : EReal) := by
  simp [one, Ideal.ofBits, Ideal.ieee, -EReal.coe_mul]; norm_num

/-- The word of 2.0 denotes the real 2. -/
theorem two_eq : two = ((2 : ℝ) : EReal) := by
  simp [two, Ideal.ofBits, Ideal.ieee, -EReal.coe_mul]; norm_num

/-- The clamp's floor is a positive real: its word is a normal number with sign bit 0, so it is a positive
    integer times a power of two. -/
theorem eps_pos : ∃ e : ℝ, 0 < e ∧ eps = (e : EReal) := by
  refine ⟨(8796093 : ℝ) * (2 : ℝ) ^ (-43 : ℤ), by positivity, ?_⟩
  simp [eps, Ideal.ofBits, Ideal.ieee, -EReal.coe_mul]

end RowLoss

end
-- ==== Proof.KTotal.lean ====
/-
  From the accumulator's recurrence to the sum over all rows.

  The 32 grid points are two halves of 16. Inside a half the accumulator restarts, at the half's first point, from
  zero plus that point's block total, and at each later point grows by the point's block total; so after the
  j-th point of half i it holds the sum of the block totals of points 16 i, …, 16 i + j (induction on j), and
  after the half's last point the total of the half's 16 blocks. Each output tile holds its half's total at entry
  (0, 0) and zero elsewhere, so the sum of all entries of the two tiles is the sum of the two halves' totals, which
  is the sum over halves, blocks and rows inside a block: the sum over all rows.
-/
import proofs.«157217_j4707284156573_1_alg».proof.Proof.TileSums
import proofs.«157217_j4707284156573_1_alg».proof.Proof.RowLossConsts

noncomputable section

namespace Cert.KernelIdeal.Total

open Idealize.ShloMosaic Idealize.ShloMosaic.ValueIdx
open scoped BigOperators

/-- Inside half i, after its j-th point the accumulator holds the block totals of the half's points 0, …, j. -/
theorem half_closed (f : ℕ → EReal) (acc : ℕ → EReal)
    (h0 : ∀ i : ℕ, i < 2 → acc (16 * i) = RowLoss.zero + ∑ r : Fin 262144, f ((16 * i) * 262144 + r.val))
    (hs : ∀ t : ℕ, t < 32 → t % 16 ≠ 0 → acc t = acc (t - 1) + ∑ r : Fin 262144, f (t * 262144 + r.val))
    (i : ℕ) (hi : i < 2) (j : ℕ) (hj : j ≤ 15) :
    acc (16 * i + j)
      = ∑ j' ∈ Finset.range (j + 1), ∑ r : Fin 262144, f ((16 * i + j') * 262144 + r.val) := by
  induction j with
  | zero =>
    -- the half's first point: zero plus the block total
    rw [Nat.add_zero, h0 i hi, RowLoss.zero_eq, EReal.coe_zero, zero_add, Finset.sum_range_succ,
      Finset.range_zero, Finset.sum_empty, zero_add, Nat.add_zero]
  | succ k ih =>
    -- a later point of the half: what was there plus the block total
    have e : 16 * i + (k + 1) - 1 = 16 * i + k := by omega
    rw [hs (16 * i + (k + 1)) (by omega) (by omega), e, ih (by omega), Finset.sum_range_succ _ (k + 1)]

/-- After the last point of half i the accumulator holds the total of the half's 16 blocks. -/
theorem half_total (f : ℕ → EReal) (acc : ℕ → EReal)
    (h0 : ∀ i : ℕ, i < 2 → acc (16 * i) = RowLoss.zero + ∑ r : Fin 262144, f ((16 * i) * 262144 + r.val))
    (hs : ∀ t : ℕ, t < 32 → t % 16 ≠ 0 → acc t = acc (t - 1) + ∑ r : Fin 262144, f (t * 262144 + r.val))
    (i : Fin 2) :
    acc (16 * i.val + 15)
      = ∑ j : Fin 16, ∑ r : Fin 262144, f ((i.val * 16 + j.val) * 262144 + r.val) := by
  rw [half_closed f acc h0 hs i.val i.isLt 15 le_rfl]
  show ∑ j' ∈ Finset.range 16, _ = _
  rw [Finset.sum_range]
  refine Finset.sum_congr rfl fun j _ => Finset.sum_congr rfl fun r _ => ?_
  rw [Nat.mul_comm 16 i.val]

/-- f n is the loss of row n; acc t is what entry (0, 0) of the accumulator holds after grid point t. At the first
    point of each half (t = 0, 16) the accumulator restarts from zero plus the point's block total, at every other
    point it grows by the point's block total; the output tile i holds acc (16 i + 15) at entry (0, 0) and zero
    elsewhere. Then the sum of all entries of the two tiles is the sum of all rows' losses. -/
theorem total_eq (f : ℕ → EReal) (acc : ℕ → EReal)
    (h0 : ∀ i : ℕ, i < 2 → acc (16 * i) = RowLoss.zero + ∑ r : Fin 262144, f ((16 * i) * 262144 + r.val))
    (hs : ∀ t : ℕ, t < 32 → t % 16 ≠ 0 → acc t = acc (t - 1) + ∑ r : Fin 262144, f (t * 262144 + r.val))
    (G : (⟨3, ![2, 8, 128]⟩ : Shape).Idx → EReal)
    (hG0 : ∀ i : Fin 2, G (ix3 i (0 : Fin 8) (0 : Fin 128)) = acc (16 * i.val + 15))
    (hGz : ∀ (i : Fin 2) (a : Fin 8) (b : Fin 128), (a ≠ 0 ∨ b ≠ 0) → G (ix3 i a b) = RowLoss.zero) :
    ∑ j, G j = ∑ n : Fin 8388608, f n.val := by
  have hz : RowLoss.zero = (0 : EReal) := by rw [RowLoss.zero_eq, EReal.coe_zero]
  -- the two tiles sum to their two corners
  rw [TileSums.sum_corner G (fun i => acc (16 * i.val + 15)) hG0 (fun i a b h => (hGz i a b h).trans hz)]
  -- each corner is its half's total; halves, blocks and rows inside a block are all the rows
  rw [← TileSums.sum_rows f]
  exact Finset.sum_congr rfl fun i _ => half_total f acc h0 hs i

end Cert.KernelIdeal.Total

end
-- ==== Proof.KTail.lean ====
/-
  What the program does after the region: from the region's output array to the result.

  The region leaves an array of two 8 × 128 tiles of partial totals. The lines after it add up every entry of
  that array onto the constant 0, divide the total by the constant 2²³ (the number of rows), and multiply the
  constant 1 (the loss weight) by the quotient. On extended reals the sum over all three axes into a scalar is
  the initial value plus the sum over every index of the array, and division and product act on the one entry of
  a scalar; so the result buffer holds the mean of the entries of the region's output array.
-/
import proofs.«157217_j4707284156573_1_alg».proof.Proof.Gen.KernelIdeal.Frame
import proofs.«157217_j4707284156573_1_alg».proof.Proof.RowLoss
import Idealize.ShloMosaic.Lib.StableHlo.Run
import Idealize.ShloMosaic.PureOps.Ideal.Laws
import Idealize.ShloMosaic.Lib.ValueIdx
import Idealize.ShloMosaic.Lib.Pipeline.Value

noncomputable section

namespace Cert.KernelIdeal.Tail

open Cert.KernelIdeal Cert.KernelIdeal.Gen Idealize.ShloMosaic Idealize.SL.Sem

/-- After the region the program sums the two 8 × 128 tiles of partial totals, divides by the number of rows and
    multiplies by the weight 1: the result buffer holds the mean of what the region's output array holds. -/
theorem tail_eq (m : (ℓ : Loc nD τ sig) → Buf (Elt Ideal) ℓ) (c : Dev nD) :
    (Pipeline.afterTail₀ cfgs (dats (F := Ideal) m) 0 (V0 m) [hostOps1] c main_v3 : S_.Idx → EReal)
      = fun _ => RowLoss.meanOf (RowLoss.zero + (∑ j : S2x8x128.Idx, ((dats (F := Ideal) m 0 c).arrAt 2 cfg0.N : S2x8x128.Idx → EReal) j : EReal)) := by
  -- the six lines after the region, each read at the buffer it writes
  unfold Pipeline.afterTail₀
  show StableHlo.after hostOps1 _ (Proc.devRef .tc main_v3) = _
  after_results
  -- the summed operand is the third window's array as the region leaves it
  rw [show Pipeline.withArrays (cfgs 0).spec c (V0 m c) (fun w => (dats m 0 c).arrAt w (cfgs 0).N) (Proc.devRef .tc main_v0)
        = (dats m 0 c).arrAt 2 cfg0.N from Pipeline.withArrays_arr spec0 launch0.win.arr_inj c _ _ 2]
  -- at the one index of a scalar: 1 · ((0 + Σ) / 2²³)
  funext i
  show Ideal.ofBits .f32 0x3F800000#32
      * Ideal.div (Ideal.hostReduceAdd reducesTo_S2x8x128_S_d0_1_2 ((dats m 0 c).arrAt 2 cfg0.N) (Ideal.ofBits .f32 0#32) i)
          (Ideal.ofBits .f32 0x4B000000#32) = _
  rw [Ideal.hostReduceAdd_total reducesTo_S2x8x128_S_d0_1_2 (fun b => b.elim0)]
  rfl

/-- The same with the region's output array named: whatever function the array is known to be, the result is the
    mean of that function's values. -/
theorem tail_eq_of (m : (ℓ : Loc nD τ sig) → Buf (Elt Ideal) ℓ) (c : Dev nD) (a : S2x8x128.Idx → EReal)
    (ha : ((dats (F := Ideal) m 0 c).arrAt 2 cfg0.N : S2x8x128.Idx → EReal) = a) :
    (Pipeline.afterTail₀ cfgs (dats (F := Ideal) m) 0 (V0 m) [hostOps1] c main_v3 : S_.Idx → EReal)
      = fun _ => RowLoss.meanOf (RowLoss.zero + ∑ j : S2x8x128.Idx, a j) := by
  subst ha; exact tail_eq m c

end Cert.KernelIdeal.Tail

end
-- ==== Proof.KAcc.lean ====
/-
  The accumulator over the grid, and the kernel's result.

  The grid's 32 points run through two halves of 16. After point t the accumulator tile holds, in entry (0, 0), the
  total loss of the blocks of t's half up to t — it restarts from zero at the first point of a half and grows by the
  point's block total at every other point — and zero in every other entry. The last point of half i copies the tile
  into tile i of the output array. So the output array's entries add up to the sum of the losses of all rows, and the
  program's result is the mean of those.
-/
import proofs.«157217_j4707284156573_1_alg».proof.Proof.Gen.KernelIdeal.Frame
import proofs.«157217_j4707284156573_1_alg».proof.Proof.KPieces
import proofs.«157217_j4707284156573_1_alg».proof.Proof.KPieceA
import proofs.«157217_j4707284156573_1_alg».proof.Proof.KBlocks
import proofs.«157217_j4707284156573_1_alg».proof.Proof.KOut
import proofs.«157217_j4707284156573_1_alg».proof.Proof.KTotal
import proofs.«157217_j4707284156573_1_alg».proof.Proof.KTail

set_option maxRecDepth 16384

noncomputable section

open scoped BigOperators

namespace Cert.KernelIdeal.Acc

open Cert.KernelIdeal Cert.KernelIdeal.Gen Cert.KernelIdeal.Body Cert.KernelIdeal.Pieces
open Idealize.ShloMosaic Idealize.ShloMosaic.ValueIdx Idealize.SL.Sem

variable (m : (ℓ : Loc nD τ sig) → Buf (Elt Ideal) ℓ) (c : Dev nD)

theorem N32 : cfg0.N = 32 := N_0

/-- The accumulator tile after point n (zero past the grid, where nothing consults it). -/
def accN (n : ℕ) : S8x128.Idx → EReal :=
  if h : n < cfg0.N then ((outsAt0 (F := Ideal) m c n h).2 : S8x128.Idx → EReal) else fun _ => 0

theorem accN_of_lt (n : ℕ) (h : n < cfg0.N) : accN m c n = ((outsAt0 (F := Ideal) m c n h).2 : S8x128.Idx → EReal) :=
  dif_pos h

/-- The total loss of the block that point t stages. -/
def bs (t : Fin cfg0.N) : EReal := blockSum (iblk (F := Ideal) m c 0 t) (iblk (F := Ideal) m c 1 t)

/-- First point of a half: zero plus the block's total at the corner, zero elsewhere. -/
theorem step_A (t : Fin cfg0.N) (h0 : t.val % 16 = 0) :
    accN m c t.val (ix2 (0 : Fin 8) (0 : Fin 128)) = RowLoss.zero + bs m c t
    ∧ ∀ (a : Fin 8) (b : Fin 128), (a ≠ 0 ∨ b ≠ 0) → accN m c t.val (ix2 a b) = RowLoss.zero := by
  have h1 : ¬t.val % 16 = 15 := by omega
  rw [accN_of_lt m c t.val t.isLt, outsAt0_A m c t h0 h1]
  dsimp only
  exact ⟨sout_A_corner c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
    fun a b h => sout_A_off c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) a b h⟩

/-- An inner point: the corner grows by the block's total, the rest is kept. -/
theorem step_B (t : Fin cfg0.N) (h0 : ¬t.val % 16 = 0) (h1 : ¬t.val % 16 = 15) :
    accN m c t.val (ix2 (0 : Fin 8) (0 : Fin 128)) = accN m c (t.val - 1) (ix2 (0 : Fin 8) (0 : Fin 128)) + bs m c t
    ∧ ∀ (a : Fin 8) (b : Fin 128), (a ≠ 0 ∨ b ≠ 0) → accN m c t.val (ix2 a b) = accN m c (t.val - 1) (ix2 a b) := by
  rw [accN_of_lt m c t.val t.isLt, accN_of_lt m c (t.val - 1) (Nat.lt_of_le_of_lt (Nat.sub_le _ _) t.isLt), outsAt0_B m c t h0 h1]
  dsimp only
  exact ⟨sout_B_corner c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
    fun a b h => sout_B_off c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 a b h⟩

/-- The last point of a half: the same, and the output block is the tile. -/
theorem step_C (t : Fin cfg0.N) (h0 : ¬t.val % 16 = 0) (h1 : t.val % 16 = 15) :
    (accN m c t.val (ix2 (0 : Fin 8) (0 : Fin 128)) = accN m c (t.val - 1) (ix2 (0 : Fin 8) (0 : Fin 128)) + bs m c t
    ∧ ∀ (a : Fin 8) (b : Fin 128), (a ≠ 0 ∨ b ≠ 0) → accN m c t.val (ix2 a b) = accN m c (t.val - 1) (ix2 a b))
    ∧ ∀ (a : Fin 8) (b : Fin 128),
        ((outsAt0 (F := Ideal) m c t.val t.isLt).1 : S1x8x128.Idx → EReal) (ix3 (0 : Fin 1) a b) = accN m c t.val (ix2 a b) := by
  rw [accN_of_lt m c t.val t.isLt, accN_of_lt m c (t.val - 1) (Nat.lt_of_le_of_lt (Nat.sub_le _ _) t.isLt), outsAt0_C m c t h0 h1]
  dsimp only
  exact ⟨⟨sout_C_corner c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      fun a b h => sout_C_off c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 a b h⟩,
    fun a b => out_C_at c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 a b⟩

/-- Off the corner the tile is zero after every point. -/
theorem off_zero : ∀ (n : ℕ) (h : n < cfg0.N) (a : Fin 8) (b : Fin 128), (a ≠ 0 ∨ b ≠ 0) → accN m c n (ix2 a b) = RowLoss.zero := by
  intro n
  induction n with
  | zero => intro h a b hab; exact (step_A m c ⟨0, h⟩ rfl).2 a b hab
  | succ k ih =>
    intro h a b hab
    by_cases h0 : (k + 1) % 16 = 0
    · exact (step_A m c ⟨k + 1, h⟩ h0).2 a b hab
    · have hk : k < cfg0.N := Nat.lt_of_succ_lt h
      by_cases h1 : (k + 1) % 16 = 15
      · exact ((step_C m c ⟨k + 1, h⟩ h0 h1).1.2 a b hab).trans (ih hk a b hab)
      · exact ((step_B m c ⟨k + 1, h⟩ h0 h1).2 a b hab).trans (ih hk a b hab)

/-! ## The rows -/

/-- The loss of row n of the two argument arrays (zero past the last row, where nothing consults it). -/
def rowLoss (n : ℕ) : EReal :=
  if h : n < 8388608 then
    RowLoss.rowK (fun k => (m ((c.tc : Thread nD τ).loc main_arg0) : S8388608x4.Idx → EReal) (ix2 (⟨n, h⟩ : Fin 8388608) k))
      (fun k => (m ((c.tc : Thread nD τ).loc main_arg1) : S8388608x4.Idx → EReal) (ix2 (⟨n, h⟩ : Fin 8388608) k))
  else 0

/-- A block's total is the total of the losses of the rows it stages. -/
theorem bs_rows (t : Fin cfg0.N) : bs m c t = ∑ r : Fin 262144, rowLoss m c (t.val * 262144 + r.val) := by
  unfold bs blockSum
  refine Finset.sum_congr rfl fun r _ => ?_
  have ht : t.val < 32 := lt_of_lt_of_eq t.isLt (N32)
  have hn : t.val * 262144 + r.val < 8388608 := by have := r.isLt; omega
  unfold rowLoss
  rw [dif_pos hn]
  congr 1
  · funext k; exact Blocks.iblk0_row m c t r k ⟨_, hn⟩ rfl
  · funext k; exact Blocks.iblk1_row m c t r k ⟨_, hn⟩ rfl

/-! ## The output array and the result -/

/-- What the output array ends holding: tile i is the accumulator tile after the last point of half i. -/
def G (j : S2x8x128.Idx) : EReal := accN m c (16 * (j 0).val + 15) (ix2 (j 1) (j 2))

theorem out_eq : ((dats (F := Ideal) m 0 c).arrAt 2 cfg0.N : S2x8x128.Idx → EReal) = G m c :=
  Out.out_array m c (G m c) fun t i ht a b => by
    have h1 : t.val % 16 = 15 := by omega
    have h0 : ¬t.val % 16 = 0 := by omega
    rw [(step_C m c t h0 h1).2 a b]
    show accN m c t.val (ix2 a b) = accN m c (16 * i.val + 15) (ix2 a b)
    rw [ht]

/-- The entries of the output array add up to the losses of all rows. -/
theorem sum_G : ∑ j, G m c j = ∑ n : Fin 8388608, rowLoss m c n.val :=
  Total.total_eq (rowLoss m c) (fun t => accN m c t (ix2 (0 : Fin 8) (0 : Fin 128)))
    (fun i hi => by
      have hlt : 16 * i < cfg0.N := by rw [N32]; omega
      have h := (step_A m c ⟨16 * i, hlt⟩ (by show 16 * i % 16 = 0; omega)).1
      rw [bs_rows] at h
      exact h)
    (fun t ht h0 => by
      have hlt : t < cfg0.N := by rw [N32]; exact ht
      by_cases h1 : t % 16 = 15
      · have h := (step_C m c ⟨t, hlt⟩ h0 h1).1.1
        rw [bs_rows] at h
        exact h
      · have h := (step_B m c ⟨t, hlt⟩ h0 h1).1
        rw [bs_rows] at h
        exact h)
    (G m c) (fun i => rfl)
    (fun i a b hab => off_zero m c (16 * i.val + 15) (by rw [N32]; have := i.isLt; omega) a b hab)

/-- THE KERNEL'S RESULT: the mean of the rows' losses. -/
theorem result_eq :
    (Pipeline.afterTail₀ cfgs (dats (F := Ideal) m) 0 (V0 m) [hostOps1] c main_v3 : S_.Idx → EReal)
      = fun _ => RowLoss.meanOf (RowLoss.zero + ∑ n : Fin 8388608, rowLoss m c n.val) := by
  rw [Tail.tail_eq_of m c (G m c) (out_eq m c), sum_G]

end Cert.KernelIdeal.Acc

end
-- ==== Proof.LibConcatCols.lean ====
/-
  Two arrays with the same number of rows laid side by side.

  Joining an n × a array X and an n × b array Y along the second axis gives an n × c array (c = a + b) whose row r is row r
  of X followed by row r of Y.  Read at an index (r, k) of the joined array: for k = l < a it is X (r, l) (`left`), and for
  k = a + l it is Y (r, l) (`right`).  The index of the joined array is given with its two coordinates as hypotheses, so
  the lemmas apply however the index is spelt.
-/
import Idealize.ShloMosaic.Lib.Pipeline.Value
import Idealize.ShloMosaic.Lib.ValueIdx

namespace ConcatCols

open Idealize.ShloMosaic Idealize.ShloMosaic.ValueIdx

variable {α : Type} {n a b c : ℕ}

/-- A position of the joined row that falls in the first array's columns reads the first array. -/
theorem left (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin a) (hr : (j 0).val = r.val) (hl : (j 1).val = l.val) :
    concatenate ⟨2, ![n, c]⟩ 1 [⟨⟨2, ![n, a]⟩, x⟩, ⟨⟨2, ![n, b]⟩, y⟩] h j = x (ix2 r l) :=
  concatenate_pair_apply_left (t := ⟨2, ![n, c]⟩) (1 : Fin 2) x y h j rfl (ix2 r l)
    (fun d => by match d with | ⟨0, _⟩ => exact hr.symm | ⟨1, _⟩ => exact hl.symm)

/-- A position a + l of the joined row reads position l of the second array's row. -/
theorem right (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1)
    (j : (⟨2, ![n, c]⟩ : Shape).Idx) (r : Fin n) (l : Fin b) (hr : (j 0).val = r.val) (hl : (j 1).val = a + l.val) :
    concatenate ⟨2, ![n, c]⟩ 1 [⟨⟨2, ![n, a]⟩, x⟩, ⟨⟨2, ![n, b]⟩, y⟩] h j = y (ix2 r l) :=
  concatenate_pair_apply_right (t := ⟨2, ![n, c]⟩) (1 : Fin 2) x y h j rfl rfl (ix2 r l)
    (fun d hd => by match d, hd with | ⟨0, _⟩, _ => exact hr.symm | ⟨1, _⟩, hd => exact absurd rfl hd)
    (by show l.val + a = (j 1).val; omega)

end ConcatCols
-- ==== Proof.RefCols.lean ====
/-
  The reference's first stages, read at a row.

  Each argument is an array of rows of four box distances. The reference clamps every entry below by a small positive
  constant and takes its logarithm, cuts the result into its four columns (left, top, right, bottom), and from them forms,
  as vectors over the rows, a centre and a squared half-sum on each of the two axes; it then lays the two axes' vectors side by side
  into two-column arrays (centres; squared half-sums, to which the constant is added to give the variances).
  Read at row n these stages are the row functions of RowLoss: the clamped logarithm, the centre and the variance.
-/
import proofs.«157217_j4707284156573_1_alg».proof.Proof.Gen.ReferenceIdeal.Read
import proofs.«157217_j4707284156573_1_alg».proof.Proof.RowLoss
import proofs.«157217_j4707284156573_1_alg».proof.Proof.LibConcatCols
import Idealize.ShloMosaic.Lib.ValueIdx

noncomputable section

namespace Cert.ReferenceIdeal.RefValue

open Cert.ReferenceIdeal Cert.ReferenceIdeal.Read Idealize.ShloMosaic Idealize.ShloMosaic.ValueIdx

variable (x0 x1 : (⟨S8388608x4, .f32⟩ : BufTy).Contents (Elt Ideal)) (n : Fin 8388608)

/-! ## Where the layout operations read

A column of the four-column array is a slice of width one, reshaped to a vector: entry n of the vector is entry (n, c) of
the array. A vector broadcast to a one-column array is read back at its row. -/

theorem idx_v3 : idx_main_v2 (idx_main_v3 (ix1 n)) = ix2 n (0 : Fin 4) :=
  funext fun a => Fin.ext (by match a with | ⟨0, _⟩ => exact Nat.div_one _ | ⟨1, _⟩ => rfl)
theorem idx_v5 : idx_main_v4 (idx_main_v5 (ix1 n)) = ix2 n (1 : Fin 4) :=
  funext fun a => Fin.ext (by match a with | ⟨0, _⟩ => exact Nat.div_one _ | ⟨1, _⟩ => rfl)
theorem idx_v7 : idx_main_v6 (idx_main_v7 (ix1 n)) = ix2 n (2 : Fin 4) :=
  funext fun a => Fin.ext (by match a with | ⟨0, _⟩ => exact Nat.div_one _ | ⟨1, _⟩ => rfl)
theorem idx_v9 : idx_main_v8 (idx_main_v9 (ix1 n)) = ix2 n (3 : Fin 4) :=
  funext fun a => Fin.ext (by match a with | ⟨0, _⟩ => exact Nat.div_one _ | ⟨1, _⟩ => rfl)
theorem idx_v37 : idx_main_v36 (idx_main_v37 (ix1 n)) = ix2 n (0 : Fin 4) :=
  funext fun a => Fin.ext (by match a with | ⟨0, _⟩ => exact Nat.div_one _ | ⟨1, _⟩ => rfl)
theorem idx_v39 : idx_main_v38 (idx_main_v39 (ix1 n)) = ix2 n (1 : Fin 4) :=
  funext fun a => Fin.ext (by match a with | ⟨0, _⟩ => exact Nat.div_one _ | ⟨1, _⟩ => rfl)
theorem idx_v41 : idx_main_v40 (idx_main_v41 (ix1 n)) = ix2 n (2 : Fin 4) :=
  funext fun a => Fin.ext (by match a with | ⟨0, _⟩ => exact Nat.div_one _ | ⟨1, _⟩ => rfl)
theorem idx_v43 : idx_main_v42 (idx_main_v43 (ix1 n)) = ix2 n (3 : Fin 4) :=
  funext fun a => Fin.ext (by match a with | ⟨0, _⟩ => exact Nat.div_one _ | ⟨1, _⟩ => rfl)

theorem idx_v18 : idx_main_v18 (ix2 n (0 : Fin 1)) = ix1 n :=
  funext fun a => Fin.ext (by match a with | ⟨0, _⟩ => rfl)
theorem idx_v19 : idx_main_v19 (ix2 n (0 : Fin 1)) = ix1 n :=
  funext fun a => Fin.ext (by match a with | ⟨0, _⟩ => rfl)
theorem idx_v29 : idx_main_v29 (ix2 n (0 : Fin 1)) = ix1 n :=
  funext fun a => Fin.ext (by match a with | ⟨0, _⟩ => rfl)
theorem idx_v30 : idx_main_v30 (ix2 n (0 : Fin 1)) = ix1 n :=
  funext fun a => Fin.ext (by match a with | ⟨0, _⟩ => rfl)
theorem idx_v52 : idx_main_v52 (ix2 n (0 : Fin 1)) = ix1 n :=
  funext fun a => Fin.ext (by match a with | ⟨0, _⟩ => rfl)
theorem idx_v53 : idx_main_v53 (ix2 n (0 : Fin 1)) = ix1 n :=
  funext fun a => Fin.ext (by match a with | ⟨0, _⟩ => rfl)
theorem idx_v63 : idx_main_v63 (ix2 n (0 : Fin 1)) = ix1 n :=
  funext fun a => Fin.ext (by match a with | ⟨0, _⟩ => rfl)
theorem idx_v64 : idx_main_v64 (ix2 n (0 : Fin 1)) = ix1 n :=
  funext fun a => Fin.ext (by match a with | ⟨0, _⟩ => rfl)

/-! ## The four logarithms of a row -/

/-- Entry n of the left column's logarithms (%3), predicted box. -/
theorem v3_at : val_main_v3 (F := Ideal) x0 (ix1 n) = RowLoss.lgR (x0 (ix2 n 0)) := by
  rw [val_main_v3_apply, val_main_v2_apply, val_main_v1_apply, val_main_v0_apply, val_main_call0_v1_apply,
    val_main_call0_v0_apply, val_main_cst_apply, idx_v3]
  rfl
/-- Entry n of the top column's logarithms (%5), predicted box. -/
theorem v5_at : val_main_v5 (F := Ideal) x0 (ix1 n) = RowLoss.lgR (x0 (ix2 n 1)) := by
  rw [val_main_v5_apply, val_main_v4_apply, val_main_v1_apply, val_main_v0_apply, val_main_call0_v1_apply,
    val_main_call0_v0_apply, val_main_cst_apply, idx_v5]
  rfl
/-- Entry n of the right column's logarithms (%7), predicted box. -/
theorem v7_at : val_main_v7 (F := Ideal) x0 (ix1 n) = RowLoss.lgR (x0 (ix2 n 2)) := by
  rw [val_main_v7_apply, val_main_v6_apply, val_main_v1_apply, val_main_v0_apply, val_main_call0_v1_apply,
    val_main_call0_v0_apply, val_main_cst_apply, idx_v7]
  rfl
/-- Entry n of the bottom column's logarithms (%9), predicted box. -/
theorem v9_at : val_main_v9 (F := Ideal) x0 (ix1 n) = RowLoss.lgR (x0 (ix2 n 3)) := by
  rw [val_main_v9_apply, val_main_v8_apply, val_main_v1_apply, val_main_v0_apply, val_main_call0_v1_apply,
    val_main_call0_v0_apply, val_main_cst_apply, idx_v9]
  rfl
/-- Entry n of the left column's logarithms (%37), target box. -/
theorem v37_at : val_main_v37 (F := Ideal) x1 (ix1 n) = RowLoss.lgR (x1 (ix2 n 0)) := by
  rw [val_main_v37_apply, val_main_v36_apply, val_main_v35_apply, val_main_v34_apply, val_main_call1_v1_apply,
    val_main_call1_v0_apply, val_main_cst_5_apply, idx_v37]
  rfl
/-- Entry n of the top column's logarithms (%39), target box. -/
theorem v39_at : val_main_v39 (F := Ideal) x1 (ix1 n) = RowLoss.lgR (x1 (ix2 n 1)) := by
  rw [val_main_v39_apply, val_main_v38_apply, val_main_v35_apply, val_main_v34_apply, val_main_call1_v1_apply,
    val_main_call1_v0_apply, val_main_cst_5_apply, idx_v39]
  rfl
/-- Entry n of the right column's logarithms (%41), target box. -/
theorem v41_at : val_main_v41 (F := Ideal) x1 (ix1 n) = RowLoss.lgR (x1 (ix2 n 2)) := by
  rw [val_main_v41_apply, val_main_v40_apply, val_main_v35_apply, val_main_v34_apply, val_main_call1_v1_apply,
    val_main_call1_v0_apply, val_main_cst_5_apply, idx_v41]
  rfl
/-- Entry n of the bottom column's logarithms (%43), target box. -/
theorem v43_at : val_main_v43 (F := Ideal) x1 (ix1 n) = RowLoss.lgR (x1 (ix2 n 3)) := by
  rw [val_main_v43_apply, val_main_v42_apply, val_main_v35_apply, val_main_v34_apply, val_main_call1_v1_apply,
    val_main_call1_v0_apply, val_main_cst_5_apply, idx_v43]
  rfl

/-! ## Centres and squared half-sums, as vectors -/

theorem v13_at : val_main_v13 (F := Ideal) x0 (ix1 n)
    = RowLoss.cenR (RowLoss.lgR (x0 (ix2 n 0))) (RowLoss.lgR (x0 (ix2 n 2))) := by
  rw [val_main_v13_apply, val_main_v12_apply, val_main_v10_apply, val_main_v11_apply, val_main_cst_0_apply,
    v7_at, v3_at]
  rfl
theorem v17_at : val_main_v17 (F := Ideal) x0 (ix1 n)
    = RowLoss.cenR (RowLoss.lgR (x0 (ix2 n 1))) (RowLoss.lgR (x0 (ix2 n 3))) := by
  rw [val_main_v17_apply, val_main_v16_apply, val_main_v14_apply, val_main_v15_apply, val_main_cst_1_apply,
    v9_at, v5_at]
  rfl
theorem v47_at : val_main_v47 (F := Ideal) x1 (ix1 n)
    = RowLoss.cenR (RowLoss.lgR (x1 (ix2 n 0))) (RowLoss.lgR (x1 (ix2 n 2))) := by
  rw [val_main_v47_apply, val_main_v46_apply, val_main_v44_apply, val_main_v45_apply, val_main_cst_6_apply,
    v41_at, v37_at]
  rfl
theorem v51_at : val_main_v51 (F := Ideal) x1 (ix1 n)
    = RowLoss.cenR (RowLoss.lgR (x1 (ix2 n 1))) (RowLoss.lgR (x1 (ix2 n 3))) := by
  rw [val_main_v51_apply, val_main_v50_apply, val_main_v48_apply, val_main_v49_apply, val_main_cst_7_apply,
    v43_at, v39_at]
  rfl
theorem v24_at : val_main_v24 (F := Ideal) x0 (ix1 n)
    = Ideal.div (RowLoss.lgR (x0 (ix2 n 2)) + RowLoss.lgR (x0 (ix2 n 0))) RowLoss.two
      * Ideal.div (RowLoss.lgR (x0 (ix2 n 2)) + RowLoss.lgR (x0 (ix2 n 0))) RowLoss.two := by
  rw [val_main_v24_apply, val_main_v23_apply, val_main_v21_apply, val_main_v22_apply, val_main_cst_2_apply,
    v7_at, v3_at]
  rfl
theorem v28_at : val_main_v28 (F := Ideal) x0 (ix1 n)
    = Ideal.div (RowLoss.lgR (x0 (ix2 n 1)) + RowLoss.lgR (x0 (ix2 n 3))) RowLoss.two
      * Ideal.div (RowLoss.lgR (x0 (ix2 n 1)) + RowLoss.lgR (x0 (ix2 n 3))) RowLoss.two := by
  rw [val_main_v28_apply, val_main_v27_apply, val_main_v25_apply, val_main_v26_apply, val_main_cst_3_apply,
    v5_at, v9_at]
  rfl
theorem v58_at : val_main_v58 (F := Ideal) x1 (ix1 n)
    = Ideal.div (RowLoss.lgR (x1 (ix2 n 2)) + RowLoss.lgR (x1 (ix2 n 0))) RowLoss.two
      * Ideal.div (RowLoss.lgR (x1 (ix2 n 2)) + RowLoss.lgR (x1 (ix2 n 0))) RowLoss.two := by
  rw [val_main_v58_apply, val_main_v57_apply, val_main_v55_apply, val_main_v56_apply, val_main_cst_8_apply,
    v41_at, v37_at]
  rfl
theorem v62_at : val_main_v62 (F := Ideal) x1 (ix1 n)
    = Ideal.div (RowLoss.lgR (x1 (ix2 n 1)) + RowLoss.lgR (x1 (ix2 n 3))) RowLoss.two
      * Ideal.div (RowLoss.lgR (x1 (ix2 n 1)) + RowLoss.lgR (x1 (ix2 n 3))) RowLoss.two := by
  rw [val_main_v62_apply, val_main_v61_apply, val_main_v59_apply, val_main_v60_apply, val_main_cst_9_apply,
    v39_at, v43_at]
  rfl

/-! ## The two-column arrays: a pair of one-column arrays side by side

Column 0 of the joined array is the first operand, column 1 the second; each operand is a vector read at its row. -/

theorem v20_col0 : val_main_v20 (F := Ideal) x0 (ix2 n (0 : Fin 2)) = val_main_v13 (F := Ideal) x0 (ix1 n) := by
  refine (ConcatCols.left (val_main_v18 (F := Ideal) x0) (val_main_v19 (F := Ideal) x0) _ (ix2 n (0 : Fin 2)) n (0 : Fin 1) rfl rfl).trans ?_
  rw [val_main_v18_apply, idx_v18]
theorem v20_col1 : val_main_v20 (F := Ideal) x0 (ix2 n (1 : Fin 2)) = val_main_v17 (F := Ideal) x0 (ix1 n) := by
  refine (ConcatCols.right (val_main_v18 (F := Ideal) x0) (val_main_v19 (F := Ideal) x0) _ (ix2 n (1 : Fin 2)) n (0 : Fin 1) rfl rfl).trans ?_
  rw [val_main_v19_apply, idx_v19]
theorem v31_col0 : val_main_v31 (F := Ideal) x0 (ix2 n (0 : Fin 2)) = val_main_v24 (F := Ideal) x0 (ix1 n) := by
  refine (ConcatCols.left (val_main_v29 (F := Ideal) x0) (val_main_v30 (F := Ideal) x0) _ (ix2 n (0 : Fin 2)) n (0 : Fin 1) rfl rfl).trans ?_
  rw [val_main_v29_apply, idx_v29]
theorem v31_col1 : val_main_v31 (F := Ideal) x0 (ix2 n (1 : Fin 2)) = val_main_v28 (F := Ideal) x0 (ix1 n) := by
  refine (ConcatCols.right (val_main_v29 (F := Ideal) x0) (val_main_v30 (F := Ideal) x0) _ (ix2 n (1 : Fin 2)) n (0 : Fin 1) rfl rfl).trans ?_
  rw [val_main_v30_apply, idx_v30]
theorem v54_col0 : val_main_v54 (F := Ideal) x1 (ix2 n (0 : Fin 2)) = val_main_v47 (F := Ideal) x1 (ix1 n) := by
  refine (ConcatCols.left (val_main_v52 (F := Ideal) x1) (val_main_v53 (F := Ideal) x1) _ (ix2 n (0 : Fin 2)) n (0 : Fin 1) rfl rfl).trans ?_
  rw [val_main_v52_apply, idx_v52]
theorem v54_col1 : val_main_v54 (F := Ideal) x1 (ix2 n (1 : Fin 2)) = val_main_v51 (F := Ideal) x1 (ix1 n) := by
  refine (ConcatCols.right (val_main_v52 (F := Ideal) x1) (val_main_v53 (F := Ideal) x1) _ (ix2 n (1 : Fin 2)) n (0 : Fin 1) rfl rfl).trans ?_
  rw [val_main_v53_apply, idx_v53]
theorem v65_col0 : val_main_v65 (F := Ideal) x1 (ix2 n (0 : Fin 2)) = val_main_v58 (F := Ideal) x1 (ix1 n) := by
  refine (ConcatCols.left (val_main_v63 (F := Ideal) x1) (val_main_v64 (F := Ideal) x1) _ (ix2 n (0 : Fin 2)) n (0 : Fin 1) rfl rfl).trans ?_
  rw [val_main_v63_apply, idx_v63]
theorem v65_col1 : val_main_v65 (F := Ideal) x1 (ix2 n (1 : Fin 2)) = val_main_v62 (F := Ideal) x1 (ix1 n) := by
  refine (ConcatCols.right (val_main_v63 (F := Ideal) x1) (val_main_v64 (F := Ideal) x1) _ (ix2 n (1 : Fin 2)) n (0 : Fin 1) rfl rfl).trans ?_
  rw [val_main_v64_apply, idx_v64]

/-! ## Centres and variances of a row, per axis

Column 0 of the two-column arrays is the horizontal axis (left, right), column 1 the vertical one (top, bottom). -/

theorem v20_at0 : val_main_v20 (F := Ideal) x0 (ix2 n (0 : Fin 2))
    = RowLoss.cenR (RowLoss.lgR (x0 (ix2 n 0))) (RowLoss.lgR (x0 (ix2 n 2))) := by
  rw [v20_col0, v13_at]
theorem v20_at1 : val_main_v20 (F := Ideal) x0 (ix2 n (1 : Fin 2))
    = RowLoss.cenR (RowLoss.lgR (x0 (ix2 n 1))) (RowLoss.lgR (x0 (ix2 n 3))) := by
  rw [v20_col1, v17_at]
theorem v54_at0 : val_main_v54 (F := Ideal) x1 (ix2 n (0 : Fin 2))
    = RowLoss.cenR (RowLoss.lgR (x1 (ix2 n 0))) (RowLoss.lgR (x1 (ix2 n 2))) := by
  rw [v54_col0, v47_at]
theorem v54_at1 : val_main_v54 (F := Ideal) x1 (ix2 n (1 : Fin 2))
    = RowLoss.cenR (RowLoss.lgR (x1 (ix2 n 1))) (RowLoss.lgR (x1 (ix2 n 3))) := by
  rw [v54_col1, v51_at]
theorem v33_at0 : val_main_v33 (F := Ideal) x0 (ix2 n (0 : Fin 2))
    = RowLoss.covR (RowLoss.lgR (x0 (ix2 n 2)) + RowLoss.lgR (x0 (ix2 n 0))) := by
  rw [val_main_v33_apply, val_main_v32_apply, val_main_cst_4_apply, v31_col0, v24_at]
  rfl
theorem v33_at1 : val_main_v33 (F := Ideal) x0 (ix2 n (1 : Fin 2))
    = RowLoss.covR (RowLoss.lgR (x0 (ix2 n 1)) + RowLoss.lgR (x0 (ix2 n 3))) := by
  rw [val_main_v33_apply, val_main_v32_apply, val_main_cst_4_apply, v31_col1, v28_at]
  rfl
theorem v67_at0 : val_main_v67 (F := Ideal) x1 (ix2 n (0 : Fin 2))
    = RowLoss.covR (RowLoss.lgR (x1 (ix2 n 2)) + RowLoss.lgR (x1 (ix2 n 0))) := by
  rw [val_main_v67_apply, val_main_v66_apply, val_main_cst_10_apply, v65_col0, v58_at]
  rfl
theorem v67_at1 : val_main_v67 (F := Ideal) x1 (ix2 n (1 : Fin 2))
    = RowLoss.covR (RowLoss.lgR (x1 (ix2 n 1)) + RowLoss.lgR (x1 (ix2 n 3))) := by
  rw [val_main_v67_apply, val_main_v66_apply, val_main_cst_10_apply, v65_col1, v62_at]
  rfl

end Cert.ReferenceIdeal.RefValue

end
-- ==== Proof.RefAxes.lean ====
/-
  The reference's per-(row, axis) arithmetic, read at an entry.

  From the two-column arrays of centres (%20 predicted, %54 target) and variances (%33, %67) the reference computes, entry
  by entry, the mixture's precision, variance and centre, the trace term, three logarithms and the two displacement
  terms. At any entry j these are RowLoss's per-axis functions of the four numbers found at j.
-/
import proofs.«157217_j4707284156573_1_alg».proof.Proof.Gen.ReferenceIdeal.Read
import proofs.«157217_j4707284156573_1_alg».proof.Proof.RowLoss
import Idealize.ShloMosaic.Lib.ValueIdx

noncomputable section

namespace Cert.ReferenceIdeal.RefValue

open Cert.ReferenceIdeal Cert.ReferenceIdeal.Read Idealize.ShloMosaic Idealize.ShloMosaic.ValueIdx

variable (x0 x1 : (⟨S8388608x4, .f32⟩ : BufTy).Contents (Elt Ideal)) (j : S8388608x2.Idx)

/-- %76: the mixture's precision. -/
theorem v76_at : val_main_v76 (F := Ideal) x0 x1 j = RowLoss.sai (val_main_v33 (F := Ideal) x0 j) (val_main_v67 (F := Ideal) x1 j) := by
  rw [val_main_v76_apply, val_main_v73_apply, val_main_v75_apply, val_main_v72_apply, val_main_v74_apply, val_main_cst_13_apply, val_main_cst_14_apply, val_main_v69_apply, val_main_v71_apply, val_main_v68_apply, val_main_v70_apply, val_main_cst_11_apply, val_main_cst_12_apply]
  rfl

/-- %78: the mixture's variance. -/
theorem v78_at : val_main_v78 (F := Ideal) x0 x1 j = RowLoss.sa (val_main_v33 (F := Ideal) x0 j) (val_main_v67 (F := Ideal) x1 j) := by
  rw [val_main_v78_apply, val_main_v77_apply, val_main_cst_15_apply, v76_at]
  rfl

/-- %86: the mixture's centre. -/
theorem v86_at : val_main_v86 (F := Ideal) x0 x1 j
    = RowLoss.mu (val_main_v20 (F := Ideal) x0 j) (val_main_v33 (F := Ideal) x0 j)
        (val_main_v54 (F := Ideal) x1 j) (val_main_v67 (F := Ideal) x1 j) := by
  rw [val_main_v86_apply, val_main_v85_apply, val_main_v81_apply, val_main_v84_apply, val_main_v80_apply, val_main_v83_apply, val_main_v79_apply, val_main_v82_apply, val_main_cst_16_apply, val_main_cst_17_apply, val_main_v69_apply, val_main_v71_apply, val_main_v68_apply, val_main_v70_apply, val_main_cst_11_apply, val_main_cst_12_apply, v78_at]
  rfl

/-- %92: the trace term. -/
theorem v92_at : val_main_v92 (F := Ideal) x0 x1 j = RowLoss.tr (val_main_v33 (F := Ideal) x0 j) (val_main_v67 (F := Ideal) x1 j) := by
  rw [val_main_v92_apply, val_main_v91_apply, val_main_v88_apply, val_main_v90_apply, val_main_v87_apply, val_main_v89_apply, val_main_cst_18_apply, val_main_cst_19_apply, v76_at]
  rfl

/-- %94: the logarithm of the mixture's variance. -/
theorem v94_at : val_main_v94 (F := Ideal) x0 x1 j = Ideal.log (RowLoss.sa (val_main_v33 (F := Ideal) x0 j) (val_main_v67 (F := Ideal) x1 j)) := by
  rw [val_main_v94_apply, v78_at]
  rfl

/-- %96: the logarithm of the predicted variance. -/
theorem v96_at : val_main_v96 (F := Ideal) x0 j = Ideal.log (val_main_v33 (F := Ideal) x0 j) := by
  rw [val_main_v96_apply]
  rfl

/-- %101: the logarithm of the target variance. -/
theorem v101_at : val_main_v101 (F := Ideal) x1 j = Ideal.log (val_main_v67 (F := Ideal) x1 j) := by
  rw [val_main_v101_apply]
  rfl

/-- %109: the displacement term of the predicted centre. -/
theorem v109_at : val_main_v109 (F := Ideal) x0 x1 j
    = ((RowLoss.mu (val_main_v20 (F := Ideal) x0 j) (val_main_v33 (F := Ideal) x0 j) (val_main_v54 (F := Ideal) x1 j) (val_main_v67 (F := Ideal) x1 j) - val_main_v20 (F := Ideal) x0 j)
          * RowLoss.sai (val_main_v33 (F := Ideal) x0 j) (val_main_v67 (F := Ideal) x1 j))
        * (RowLoss.mu (val_main_v20 (F := Ideal) x0 j) (val_main_v33 (F := Ideal) x0 j) (val_main_v54 (F := Ideal) x1 j) (val_main_v67 (F := Ideal) x1 j) - val_main_v20 (F := Ideal) x0 j) := by
  rw [val_main_v109_apply, val_main_v108_apply, val_main_v106_apply, v86_at, v76_at]
  rfl

/-- %114: the displacement term of the target centre. -/
theorem v114_at : val_main_v114 (F := Ideal) x0 x1 j
    = ((RowLoss.mu (val_main_v20 (F := Ideal) x0 j) (val_main_v33 (F := Ideal) x0 j) (val_main_v54 (F := Ideal) x1 j) (val_main_v67 (F := Ideal) x1 j) - val_main_v54 (F := Ideal) x1 j)
          * RowLoss.sai (val_main_v33 (F := Ideal) x0 j) (val_main_v67 (F := Ideal) x1 j))
        * (RowLoss.mu (val_main_v20 (F := Ideal) x0 j) (val_main_v33 (F := Ideal) x0 j) (val_main_v54 (F := Ideal) x1 j) (val_main_v67 (F := Ideal) x1 j) - val_main_v54 (F := Ideal) x1 j) := by
  rw [val_main_v114_apply, val_main_v113_apply, val_main_v107_apply, v86_at, v76_at]
  rfl

end Cert.ReferenceIdeal.RefValue

end
-- ==== Proof.RefRow.lean ====
/-
  The reference's row, and its result.

  The six two-entry sums over the axes, the combination of their values into js and the loss of the row: entry n of the
  reference's per-row array is RowLoss.rowR of row n of the two arguments. The result is the sum of that array onto
  zero, divided by the number of rows and multiplied by the weight 1.
-/
import proofs.«157217_j4707284156573_1_alg».proof.Proof.Gen.ReferenceIdeal.Read
import proofs.«157217_j4707284156573_1_alg».proof.Proof.RowLoss
import proofs.«157217_j4707284156573_1_alg».proof.Proof.LibConcatCols
import proofs.«157217_j4707284156573_1_alg».proof.Proof.RefCols
import proofs.«157217_j4707284156573_1_alg».proof.Proof.RefAxes
import Idealize.ShloMosaic.Lib.ValueIdx

noncomputable section

namespace Cert.ReferenceIdeal.RefValue

open Cert.ReferenceIdeal Cert.ReferenceIdeal.Read Idealize.ShloMosaic Idealize.ShloMosaic.ValueIdx

variable (x0 x1 : (⟨S8388608x4, .f32⟩ : BufTy).Contents (Elt Ideal)) (n : Fin 8388608)

/-! ## The two-entry sums over the axes

A sum along the second axis of a two-column array, read at row n, is the initial value plus the entries (n, 0) and (n, 1). -/

theorem idx_v93 (k : Fin 2) : idx_main_v93 (ix1 n) k = ix2 n k :=
  funext fun a => Fin.ext (by match a with | ⟨0, _⟩ => rfl | ⟨1, _⟩ => rfl)
theorem idx_v95 (k : Fin 2) : idx_main_v95 (ix1 n) k = ix2 n k :=
  funext fun a => Fin.ext (by match a with | ⟨0, _⟩ => rfl | ⟨1, _⟩ => rfl)
theorem idx_v97 (k : Fin 2) : idx_main_v97 (ix1 n) k = ix2 n k :=
  funext fun a => Fin.ext (by match a with | ⟨0, _⟩ => rfl | ⟨1, _⟩ => rfl)
theorem idx_v102 (k : Fin 2) : idx_main_v102 (ix1 n) k = ix2 n k :=
  funext fun a => Fin.ext (by match a with | ⟨0, _⟩ => rfl | ⟨1, _⟩ => rfl)
theorem idx_v110 (k : Fin 2) : idx_main_v110 (ix1 n) k = ix2 n k :=
  funext fun a => Fin.ext (by match a with | ⟨0, _⟩ => rfl | ⟨1, _⟩ => rfl)
theorem idx_v115 (k : Fin 2) : idx_main_v115 (ix1 n) k = ix2 n k :=
  funext fun a => Fin.ext (by match a with | ⟨0, _⟩ => rfl | ⟨1, _⟩ => rfl)

/-- %93: the trace terms, summed over the two axes onto zero. -/
theorem v93_at : val_main_v93 (F := Ideal) x0 x1 (ix1 n)
    = RowLoss.zero + (RowLoss.tr (val_main_v33 (F := Ideal) x0 (ix2 n (0 : Fin 2))) (val_main_v67 (F := Ideal) x1 (ix2 n (0 : Fin 2)))
      + RowLoss.tr (val_main_v33 (F := Ideal) x0 (ix2 n (1 : Fin 2))) (val_main_v67 (F := Ideal) x1 (ix2 n (1 : Fin 2)))) := by
  rw [val_main_v93_apply, Fin.sum_univ_two, idx_v93, idx_v93, v92_at, v92_at, val_main_cst_20_apply]
  rfl
/-- %95: the logarithms of the mixture's variances, summed over the two axes onto zero. -/
theorem v95_at : val_main_v95 (F := Ideal) x0 x1 (ix1 n)
    = RowLoss.zero + (Ideal.log (RowLoss.sa (val_main_v33 (F := Ideal) x0 (ix2 n (0 : Fin 2))) (val_main_v67 (F := Ideal) x1 (ix2 n (0 : Fin 2))))
      + Ideal.log (RowLoss.sa (val_main_v33 (F := Ideal) x0 (ix2 n (1 : Fin 2))) (val_main_v67 (F := Ideal) x1 (ix2 n (1 : Fin 2))))) := by
  rw [val_main_v95_apply, Fin.sum_univ_two, idx_v95, idx_v95, v94_at, v94_at, val_main_cst_21_apply]
  rfl
/-- %97: the logarithms of the predicted variances, summed over the two axes onto zero. -/
theorem v97_at : val_main_v97 (F := Ideal) x0 (ix1 n)
    = RowLoss.zero + (Ideal.log (val_main_v33 (F := Ideal) x0 (ix2 n (0 : Fin 2)))
      + Ideal.log (val_main_v33 (F := Ideal) x0 (ix2 n (1 : Fin 2)))) := by
  rw [val_main_v97_apply, Fin.sum_univ_two, idx_v97, idx_v97, v96_at, v96_at, val_main_cst_22_apply]
  rfl
/-- %102: the logarithms of the target variances, summed over the two axes onto zero. -/
theorem v102_at : val_main_v102 (F := Ideal) x1 (ix1 n)
    = RowLoss.zero + (Ideal.log (val_main_v67 (F := Ideal) x1 (ix2 n (0 : Fin 2)))
      + Ideal.log (val_main_v67 (F := Ideal) x1 (ix2 n (1 : Fin 2)))) := by
  rw [val_main_v102_apply, Fin.sum_univ_two, idx_v102, idx_v102, v101_at, v101_at, val_main_cst_24_apply]
  rfl
/-- %110: the predicted centres' displacement terms, summed over the two axes onto zero. -/
theorem v110_at : val_main_v110 (F := Ideal) x0 x1 (ix1 n)
    = RowLoss.zero + (((RowLoss.mu (val_main_v20 (F := Ideal) x0 (ix2 n (0 : Fin 2))) (val_main_v33 (F := Ideal) x0 (ix2 n (0 : Fin 2))) (val_main_v54 (F := Ideal) x1 (ix2 n (0 : Fin 2))) (val_main_v67 (F := Ideal) x1 (ix2 n (0 : Fin 2))) - val_main_v20 (F := Ideal) x0 (ix2 n (0 : Fin 2))) * RowLoss.sai (val_main_v33 (F := Ideal) x0 (ix2 n (0 : Fin 2))) (val_main_v67 (F := Ideal) x1 (ix2 n (0 : Fin 2)))) * (RowLoss.mu (val_main_v20 (F := Ideal) x0 (ix2 n (0 : Fin 2))) (val_main_v33 (F := Ideal) x0 (ix2 n (0 : Fin 2))) (val_main_v54 (F := Ideal) x1 (ix2 n (0 : Fin 2))) (val_main_v67 (F := Ideal) x1 (ix2 n (0 : Fin 2))) - val_main_v20 (F := Ideal) x0 (ix2 n (0 : Fin 2)))
      + ((RowLoss.mu (val_main_v20 (F := Ideal) x0 (ix2 n (1 : Fin 2))) (val_main_v33 (F := Ideal) x0 (ix2 n (1 : Fin 2))) (val_main_v54 (F := Ideal) x1 (ix2 n (1 : Fin 2))) (val_main_v67 (F := Ideal) x1 (ix2 n (1 : Fin 2))) - val_main_v20 (F := Ideal) x0 (ix2 n (1 : Fin 2))) * RowLoss.sai (val_main_v33 (F := Ideal) x0 (ix2 n (1 : Fin 2))) (val_main_v67 (F := Ideal) x1 (ix2 n (1 : Fin 2)))) * (RowLoss.mu (val_main_v20 (F := Ideal) x0 (ix2 n (1 : Fin 2))) (val_main_v33 (F := Ideal) x0 (ix2 n (1 : Fin 2))) (val_main_v54 (F := Ideal) x1 (ix2 n (1 : Fin 2))) (val_main_v67 (F := Ideal) x1 (ix2 n (1 : Fin 2))) - val_main_v20 (F := Ideal) x0 (ix2 n (1 : Fin 2)))) := by
  rw [val_main_v110_apply, Fin.sum_univ_two, idx_v110, idx_v110, v109_at, v109_at, val_main_cst_26_apply]
  rfl
/-- %115: the target centres' displacement terms, summed over the two axes onto zero. -/
theorem v115_at : val_main_v115 (F := Ideal) x0 x1 (ix1 n)
    = RowLoss.zero + (((RowLoss.mu (val_main_v20 (F := Ideal) x0 (ix2 n (0 : Fin 2))) (val_main_v33 (F := Ideal) x0 (ix2 n (0 : Fin 2))) (val_main_v54 (F := Ideal) x1 (ix2 n (0 : Fin 2))) (val_main_v67 (F := Ideal) x1 (ix2 n (0 : Fin 2))) - val_main_v54 (F := Ideal) x1 (ix2 n (0 : Fin 2))) * RowLoss.sai (val_main_v33 (F := Ideal) x0 (ix2 n (0 : Fin 2))) (val_main_v67 (F := Ideal) x1 (ix2 n (0 : Fin 2)))) * (RowLoss.mu (val_main_v20 (F := Ideal) x0 (ix2 n (0 : Fin 2))) (val_main_v33 (F := Ideal) x0 (ix2 n (0 : Fin 2))) (val_main_v54 (F := Ideal) x1 (ix2 n (0 : Fin 2))) (val_main_v67 (F := Ideal) x1 (ix2 n (0 : Fin 2))) - val_main_v54 (F := Ideal) x1 (ix2 n (0 : Fin 2)))
      + ((RowLoss.mu (val_main_v20 (F := Ideal) x0 (ix2 n (1 : Fin 2))) (val_main_v33 (F := Ideal) x0 (ix2 n (1 : Fin 2))) (val_main_v54 (F := Ideal) x1 (ix2 n (1 : Fin 2))) (val_main_v67 (F := Ideal) x1 (ix2 n (1 : Fin 2))) - val_main_v54 (F := Ideal) x1 (ix2 n (1 : Fin 2))) * RowLoss.sai (val_main_v33 (F := Ideal) x0 (ix2 n (1 : Fin 2))) (val_main_v67 (F := Ideal) x1 (ix2 n (1 : Fin 2)))) * (RowLoss.mu (val_main_v20 (F := Ideal) x0 (ix2 n (1 : Fin 2))) (val_main_v33 (F := Ideal) x0 (ix2 n (1 : Fin 2))) (val_main_v54 (F := Ideal) x1 (ix2 n (1 : Fin 2))) (val_main_v67 (F := Ideal) x1 (ix2 n (1 : Fin 2))) - val_main_v54 (F := Ideal) x1 (ix2 n (1 : Fin 2)))) := by
  rw [val_main_v115_apply, Fin.sum_univ_two, idx_v115, idx_v115, v114_at, v114_at, val_main_cst_28_apply]
  rfl

/-! ## The row's combination -/

/-- %124: js, from the centres and variances found in the two-column arrays at row n. -/
theorem v124_at : val_main_v124 (F := Ideal) x0 x1 (ix1 n)
    = RowLoss.jsR (val_main_v20 (F := Ideal) x0 (ix2 n (0 : Fin 2))) (val_main_v33 (F := Ideal) x0 (ix2 n (0 : Fin 2)))
        (val_main_v54 (F := Ideal) x1 (ix2 n (0 : Fin 2))) (val_main_v67 (F := Ideal) x1 (ix2 n (0 : Fin 2)))
        (val_main_v20 (F := Ideal) x0 (ix2 n (1 : Fin 2))) (val_main_v33 (F := Ideal) x0 (ix2 n (1 : Fin 2)))
        (val_main_v54 (F := Ideal) x1 (ix2 n (1 : Fin 2))) (val_main_v67 (F := Ideal) x1 (ix2 n (1 : Fin 2))) := by
  rw [val_main_v124_apply, val_main_v123_apply, val_main_cst_31_apply, val_main_v122_apply, val_main_v121_apply, val_main_v120_apply, val_main_v119_apply, val_main_cst_30_apply, val_main_v118_apply, val_main_v117_apply, val_main_v116_apply, val_main_cst_29_apply, val_main_v112_apply, val_main_v111_apply, val_main_cst_27_apply, val_main_v105_apply, val_main_v104_apply, val_main_v103_apply, val_main_cst_25_apply, val_main_v100_apply, val_main_v99_apply, val_main_v98_apply, val_main_cst_23_apply,
    v93_at, v95_at, v97_at, v102_at, v110_at, v115_at]
  rfl

/-- %131: the row's loss, from js. -/
theorem v131_at : val_main_v131 (F := Ideal) x0 x1 (ix1 n)
    = RowLoss.lossOf (RowLoss.jsR (val_main_v20 (F := Ideal) x0 (ix2 n (0 : Fin 2))) (val_main_v33 (F := Ideal) x0 (ix2 n (0 : Fin 2)))
        (val_main_v54 (F := Ideal) x1 (ix2 n (0 : Fin 2))) (val_main_v67 (F := Ideal) x1 (ix2 n (0 : Fin 2)))
        (val_main_v20 (F := Ideal) x0 (ix2 n (1 : Fin 2))) (val_main_v33 (F := Ideal) x0 (ix2 n (1 : Fin 2)))
        (val_main_v54 (F := Ideal) x1 (ix2 n (1 : Fin 2))) (val_main_v67 (F := Ideal) x1 (ix2 n (1 : Fin 2)))) := by
  rw [val_main_v131_apply, val_main_v130_apply, val_main_cst_34_apply, val_main_v129_apply, val_main_v128_apply, val_main_cst_33_apply, val_main_v127_apply, val_main_v126_apply, val_main_cst_32_apply, val_main_v125_apply, v124_at]
  rfl

/-- Entry n of the reference's per-row loss array (%131) is the reference's row function of row n of the two arguments. -/
theorem row_eq (x0 x1 : (⟨S8388608x4, .f32⟩ : BufTy).Contents (Elt Ideal)) (n : Fin 8388608) :
    val_main_v131 (F := Ideal) x0 x1 (ix1 n)
      = RowLoss.rowR (fun k => x0 (ix2 n k)) (fun k => x1 (ix2 n k)) := by
  rw [v131_at, v20_at0, v20_at1, v33_at0, v33_at1, v54_at0, v54_at1, v67_at0, v67_at1]
  rfl

/-! ## The result: the mean over the rows -/

/-- The rows of a vector of 2²³ entries are its indices. -/
def rowEquiv : Fin 8388608 ≃ S8388608.Idx where
  toFun n := ix1 n
  invFun j := j 0
  left_inv _ := rfl
  right_inv j := (eq_ix1 j).symm

/-- The reference's result (%134): the mean of the rows' losses, times the weight 1. -/
theorem result_eq (x0 x1 : (⟨S8388608x4, .f32⟩ : BufTy).Contents (Elt Ideal)) (i : S_.Idx) :
    val_main_v134 (F := Ideal) x0 x1 i
      = RowLoss.meanOf (RowLoss.zero + ∑ n : Fin 8388608,
          RowLoss.rowR (fun k => x0 (ix2 n k)) (fun k => x1 (ix2 n k))) := by
  rw [val_main_v134_apply, val_main_v133_apply, val_main_v132_apply, val_main_cst_37_apply, val_main_cst_36_apply,
    val_main_cst_35_apply, ← Equiv.sum_comp rowEquiv (val_main_v131 (F := Ideal) x0 x1)]
  have hrow : ∀ n : Fin 8388608, val_main_v131 (F := Ideal) x0 x1 (rowEquiv n)
      = RowLoss.rowR (fun k => x0 (ix2 n k)) (fun k => x1 (ix2 n k)) := fun n => row_eq x0 x1 n
  rw [Finset.sum_congr rfl fun n _ => hrow n]
  generalize (∑ n : Fin 8388608, RowLoss.rowR (fun k => x0 (ix2 n k)) (fun k => x1 (ix2 n k))) = s
  rfl

end Cert.ReferenceIdeal.RefValue

end
-- ==== Proof.RowLossReal.lean ====
/-
  One row of the loss over the real numbers.

  With real entries nothing in a row ever leaves the reals: a clamped entry is at least the positive floor, so
  its logarithm is real; a variance is a square plus the floor, hence positive; the mixture's precision is half
  the sum of two positive reciprocals, hence positive, and so is its reciprocal, the mixture's variance. Every
  divisor met is therefore a nonzero real and every logarithm is taken of a positive real. Here each definition
  of a row is written once more over ℝ, and the definition over the extended reals, at real arguments satisfying
  the positivity it needs, is shown to be the coercion of that real twin.
-/
import proofs.«157217_j4707284156573_1_alg».proof.Proof.RowLossConsts

noncomputable section

namespace RowLoss

open Idealize.ShloMosaic

/-! ## Three operations at real arguments -/

/-- A real divided by a nonzero real is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

/-- The logarithm of a positive real is the real logarithm. -/
theorem log_coe_pos {r : ℝ} (h : 0 < r) : Ideal.log (r : EReal) = ((Real.log r : ℝ) : EReal) := by
  rw [Ideal.log_coe, if_neg (not_le.mpr h)]

/-- The larger of two reals, taken among the extended reals, is the larger real. -/
theorem max_coe_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-! ## The same definitions over the reals -/

def saiℝ (cp ct : ℝ) : ℝ := 1 / 2 * (1 / cp) + 1 / 2 * (1 / ct)
def saℝ (cp ct : ℝ) : ℝ := 1 / saiℝ cp ct
def muℝ (mp cp mt ct : ℝ) : ℝ :=
  saℝ cp ct * ((1 / 2 * (1 / cp)) * mp + (1 / 2 * (1 / ct)) * mt)
def trℝ (cp ct : ℝ) : ℝ := saiℝ cp ct * (1 / 2 * cp + 1 / 2 * ct)
/-- A centre from two logarithms. -/
def cenℝ (a b : ℝ) : ℝ := (b - a) * (1 / 2) + a
/-- A variance from the sum of two logarithms, above the floor `e`. -/
def covℝ (e s : ℝ) : ℝ := (s * (1 / 2)) * (s * (1 / 2)) + e
/-- One axis' contribution, the four terms added left to right. -/
def axisKℝ (mp cp mt ct : ℝ) : ℝ :=
  ((trℝ cp ct + ((Real.log (saℝ cp ct) - 1 / 2 * Real.log cp) - 1 / 2 * Real.log ct))
      + ((1 / 2 * (muℝ mp cp mt ct - mp)) * saiℝ cp ct) * (muℝ mp cp mt ct - mp))
    + ((1 / 2 * (muℝ mp cp mt ct - mt)) * saiℝ cp ct) * (muℝ mp cp mt ct - mt)
/-- js with every kind of term summed over the two axes onto zero before it is scaled. -/
def jsRℝ (mpx cpx mtx ctx mpy cpy mty cty : ℝ) : ℝ :=
  1 / 2 *
    (((((0 + (trℝ cpx ctx + trℝ cpy cty))
          + (((0 + (Real.log (saℝ cpx ctx) + Real.log (saℝ cpy cty)))
                - 1 / 2 * (0 + (Real.log cpx + Real.log cpy)))
              - 1 / 2 * (0 + (Real.log ctx + Real.log cty))))
        - 2)
      + 1 / 2 * (0 + (((muℝ mpx cpx mtx ctx - mpx) * saiℝ cpx ctx) * (muℝ mpx cpx mtx ctx - mpx)
                      + ((muℝ mpy cpy mty cty - mpy) * saiℝ cpy cty) * (muℝ mpy cpy mty cty - mpy))))
     + 1 / 2 * (0 + (((muℝ mpx cpx mtx ctx - mtx) * saiℝ cpx ctx) * (muℝ mpx cpx mtx ctx - mtx)
                     + ((muℝ mpy cpy mty cty - mty) * saiℝ cpy cty) * (muℝ mpy cpy mty cty - mty))))

/-! ## Positivity: every divisor and every argument of a logarithm is a positive real -/

theorem saiℝ_pos {cp ct : ℝ} (hp : 0 < cp) (ht : 0 < ct) : 0 < saiℝ cp ct := by
  unfold saiℝ; positivity

theorem saℝ_pos {cp ct : ℝ} (hp : 0 < cp) (ht : 0 < ct) : 0 < saℝ cp ct := by
  unfold saℝ; exact one_div_pos.mpr (saiℝ_pos hp ht)

/-- A square plus a positive floor is positive. -/
theorem covℝ_pos {e : ℝ} (he : 0 < e) (s : ℝ) : 0 < covℝ e s := by
  unfold covℝ; have := mul_self_nonneg (s * (1 / 2)); linarith

/-! ## Each definition at real arguments is the coercion of its real twin -/

theorem sai_coe {cp ct : ℝ} (hp : cp ≠ 0) (ht : ct ≠ 0) :
    sai (cp : EReal) (ct : EReal) = ((saiℝ cp ct : ℝ) : EReal) := by
  rw [sai, half_eq, one_eq, div_coe_coe 1 hp, div_coe_coe 1 ht]
  simp only [saiℝ, EReal.coe_add, EReal.coe_mul]

theorem sa_coe {cp ct : ℝ} (hp : 0 < cp) (ht : 0 < ct) :
    sa (cp : EReal) (ct : EReal) = ((saℝ cp ct : ℝ) : EReal) := by
  rw [sa, sai_coe hp.ne' ht.ne', one_eq, div_coe_coe 1 (saiℝ_pos hp ht).ne', saℝ]

theorem mu_coe (mp mt : ℝ) {cp ct : ℝ} (hp : 0 < cp) (ht : 0 < ct) :
    mu (mp : EReal) (cp : EReal) (mt : EReal) (ct : EReal) = ((muℝ mp cp mt ct : ℝ) : EReal) := by
  rw [mu, sa_coe hp ht, half_eq, one_eq, div_coe_coe 1 hp.ne', div_coe_coe 1 ht.ne']
  simp only [muℝ, EReal.coe_add, EReal.coe_mul]

theorem tr_coe {cp ct : ℝ} (hp : cp ≠ 0) (ht : ct ≠ 0) :
    tr (cp : EReal) (ct : EReal) = ((trℝ cp ct : ℝ) : EReal) := by
  rw [tr, sai_coe hp ht, half_eq]
  simp only [trℝ, EReal.coe_add, EReal.coe_mul]

theorem cenK_coe (a b : ℝ) : cenK (a : EReal) (b : EReal) = ((cenℝ a b : ℝ) : EReal) := by
  rw [cenK, half_eq]
  simp only [cenℝ, EReal.coe_add, EReal.coe_sub, EReal.coe_mul]

theorem covK_coe {e : ℝ} (hee : eps = (e : EReal)) (s : ℝ) :
    covK (s : EReal) = ((covℝ e s : ℝ) : EReal) := by
  rw [covK, half_eq, hee]
  simp only [covℝ, EReal.coe_add, EReal.coe_mul]

/-- A clamped real has a real logarithm. -/
theorem lgK_coe {e : ℝ} (he : 0 < e) (hee : eps = (e : EReal)) (v : ℝ) :
    lgK (v : EReal) = ((Real.log (max v e) : ℝ) : EReal) := by
  rw [lgK, hee, max_coe_coe, log_coe_pos (lt_max_of_lt_right he)]

theorem axisK_coe (mp mt : ℝ) {cp ct : ℝ} (hp : 0 < cp) (ht : 0 < ct) :
    axisK (mp : EReal) (cp : EReal) (mt : EReal) (ct : EReal) = ((axisKℝ mp cp mt ct : ℝ) : EReal) := by
  rw [axisK, tr_coe hp.ne' ht.ne', sa_coe hp ht, mu_coe mp mt hp ht, sai_coe hp.ne' ht.ne',
    log_coe_pos (saℝ_pos hp ht), log_coe_pos hp, log_coe_pos ht, half_eq]
  simp only [axisKℝ, EReal.coe_add, EReal.coe_sub, EReal.coe_mul]

theorem jsR_coe (mpx mtx mpy mty : ℝ) {cpx ctx cpy cty : ℝ}
    (hpx : 0 < cpx) (htx : 0 < ctx) (hpy : 0 < cpy) (hty : 0 < cty) :
    jsR (mpx : EReal) (cpx : EReal) (mtx : EReal) (ctx : EReal)
        (mpy : EReal) (cpy : EReal) (mty : EReal) (cty : EReal)
      = ((jsRℝ mpx cpx mtx ctx mpy cpy mty cty : ℝ) : EReal) := by
  rw [jsR, tr_coe hpx.ne' htx.ne', tr_coe hpy.ne' hty.ne', sa_coe hpx htx, sa_coe hpy hty,
    mu_coe mpx mtx hpx htx, mu_coe mpy mty hpy hty, sai_coe hpx.ne' htx.ne', sai_coe hpy.ne' hty.ne',
    log_coe_pos (saℝ_pos hpx htx), log_coe_pos (saℝ_pos hpy hty),
    log_coe_pos hpx, log_coe_pos htx, log_coe_pos hpy, log_coe_pos hty, half_eq, two_eq, zero_eq]
  simp only [jsRℝ, EReal.coe_add, EReal.coe_sub, EReal.coe_mul]

end RowLoss

end
-- ==== Proof.RowLossEq.lean ====
/-
  The kernel's row and the reference's row are one number on real entries.

  The reference differs from the kernel in three spellings and one order of summation. The spellings: it clamps
  with the operands the other way round (max is commutative), and it divides by 2 where the kernel multiplies
  by 1/2 (the same at every extended real, 2 being a nonzero real); rewriting these makes the reference's
  logarithms, centres and variances literally the kernel's. The order: the kernel adds the four terms of an
  axis and then the two axes, halves, and subtracts 2 inside; the reference adds each kind of term over the two
  axes onto zero and scales afterwards. With real centres and positive real variances both are coercions of
  real numbers, and the two real numbers agree by the laws of a commutative ring, the traces, logarithms,
  mixture centres and precisions being the same atoms on both sides.
-/
import proofs.«157217_j4707284156573_1_alg».proof.Proof.RowLossReal

noncomputable section

namespace RowLoss

open Idealize.ShloMosaic

/-! ## The reference's row over the kernel's spellings -/

/-- Dividing by 2 is multiplying by 1/2, at every extended real. -/
theorem div_two (x : EReal) : Ideal.div x two = x * half := by
  rw [two_eq, half_eq, Ideal.div_coe two_ne_zero]

/-- The clamp does not depend on the order of its operands. -/
theorem lgR_eq (v : EReal) : lgR v = lgK v := by rw [lgR, lgK, max_comm]

theorem cenR_eq (a b : EReal) : cenR a b = cenK a b := by rw [cenR, cenK, div_two]

theorem covR_eq (s : EReal) : covR s = covK s := by rw [covR, covK, div_two]

/-! ## The two orders of summation -/

/-- Over the reals: the four terms of each axis added and then the two axes, against each kind of term added
    over the two axes first. Traces, logarithms, centres and precisions are atoms; the identity is one of
    commutative rings. -/
theorem js_real (mpx cpx mtx ctx mpy cpy mty cty : ℝ) :
    1 / 2 * ((axisKℝ mpx cpx mtx ctx + axisKℝ mpy cpy mty cty) - 2)
      = jsRℝ mpx cpx mtx ctx mpy cpy mty cty := by
  unfold axisKℝ jsRℝ; ring

/-- The same at real centres and positive real variances, among the extended reals. -/
theorem js_eq (mpx mtx mpy mty : ℝ) {cpx ctx cpy cty : ℝ}
    (hpx : 0 < cpx) (htx : 0 < ctx) (hpy : 0 < cpy) (hty : 0 < cty) :
    half * ((axisK (mpx : EReal) (cpx : EReal) (mtx : EReal) (ctx : EReal)
              + axisK (mpy : EReal) (cpy : EReal) (mty : EReal) (cty : EReal)) - two)
      = jsR (mpx : EReal) (cpx : EReal) (mtx : EReal) (ctx : EReal)
            (mpy : EReal) (cpy : EReal) (mty : EReal) (cty : EReal) := by
  rw [axisK_coe mpx mtx hpx htx, axisK_coe mpy mty hpy hty, jsR_coe mpx mtx mpy mty hpx htx hpy hty,
    half_eq, two_eq, ← EReal.coe_add, ← EReal.coe_sub, ← EReal.coe_mul, js_real]

/-! ## The row -/

/-- On real entries the kernel's row and the reference's row are one number. -/
theorem rowK_eq_rowR (x y : Fin 4 → EReal)
    (hx : ∀ k, ∃ r : ℝ, x k = (r : EReal)) (hy : ∀ k, ∃ r : ℝ, y k = (r : EReal)) :
    rowK x y = rowR x y := by
  obtain ⟨e, he, hee⟩ := eps_pos
  -- every clamped entry has a real logarithm
  have hl : ∀ v : EReal, (∃ r : ℝ, v = (r : EReal)) → ∃ l : ℝ, lgK v = (l : EReal) := by
    rintro v ⟨r, rfl⟩; exact ⟨_, lgK_coe he hee r⟩
  obtain ⟨a0, h0⟩ := hl _ (hx 0)
  obtain ⟨a1, h1⟩ := hl _ (hx 1)
  obtain ⟨a2, h2⟩ := hl _ (hx 2)
  obtain ⟨a3, h3⟩ := hl _ (hx 3)
  obtain ⟨b0, g0⟩ := hl _ (hy 0)
  obtain ⟨b1, g1⟩ := hl _ (hy 1)
  obtain ⟨b2, g2⟩ := hl _ (hy 2)
  obtain ⟨b3, g3⟩ := hl _ (hy 3)
  rw [rowK, rowR]
  simp only [lgR_eq, cenR_eq, covR_eq]
  rw [h0, h1, h2, h3, g0, g1, g2, g3]
  simp only [← EReal.coe_add, cenK_coe, covK_coe hee]
  rw [js_eq _ _ _ _ (covℝ_pos he _) (covℝ_pos he _) (covℝ_pos he _) (covℝ_pos he _)]

end RowLoss

end
-- ==== Proof.LibFiniteReal.lean ====
/-
  An array of extended reals every entry of which has absolute value below +∞ is an array of real numbers.

  A "finite inputs" precondition is printed, per float array, as: the absolute value entry by entry, compared (ordered
  less-than) against the broadcast word of +∞, and the comparison bits joined by `and` over all axes starting from 1.
  `real_of_abs_lt_inf` is the fact at one entry: an extended real `x` with `max x (-x) < ⊤` is neither `⊤` nor `⊥`, hence
  a real number.  `all_real` is the fact for one array of ANY shape: if that conjunction is 1, every entry is a real
  number (the entry is read at a symbolic index; nothing is evaluated over the index set).  Imports only the library.
-/
import Idealize.ShloMosaic.Lib.ValueIdx
import Idealize.ShloMosaic.Lib.ReduceAll
import Idealize.ShloMosaic.PureOps.Ideal.Laws

noncomputable section

namespace FiniteReal

open Idealize.ShloMosaic

/-- The rank-0 shape has exactly one index (a function out of the empty set of axes). -/
instance subsingleton_scalar_idx : Subsingleton (⟨0, ![]⟩ : Shape).Idx := ⟨fun _ _ => funext fun d => d.elim0⟩

/-- The word `0x7F800000` denotes `+∞` at f32. -/
theorem ofBits_inf : Ideal.ofBits .f32 0x7F800000#32 = (⊤ : EReal) := by simp [Ideal.ofBits, Ideal.ieee]

/-- A one-bit word built from a Boolean is 1 exactly when the Boolean is true. -/
theorem ofBool_eq_one (b : Bool) : BitVec.ofBool b = 1#1 ↔ b = true := by cases b <;> decide

/-- THE ELEMENT FACT: an extended real `x` with `|x| < +∞` (the comparison the predicate makes at one entry) is a
    real number: `x = ⊥` gives `|x| = max ⊥ ⊤ = ⊤`, `x = ⊤` gives `|x| = ⊤`, neither below `⊤`. -/
theorem real_of_abs_lt_inf (x : EReal)
    (hx : FloatOps.cmpf (F := Ideal) (φ := .f32) .olt (FloatOps.hostAbsf (F := Ideal) (φ := .f32) x)
        (FloatOps.ofBits (F := Ideal) .f32 0x7F800000#32) = 1#1) :
    ∃ r : ℝ, x = (r : EReal) := by
  change Ideal.cmp .olt (max x (-x)) (Ideal.ofBits .f32 0x7F800000#32) = 1#1 at hx
  rw [ofBits_inf] at hx
  unfold Ideal.cmp at hx
  rw [ofBool_eq_one] at hx
  have hlt : max x (-x) < ⊤ := of_decide_eq_true hx
  rw [max_lt_iff] at hlt
  induction x using EReal.rec with
  | bot => exact absurd hlt.2 (by simp)
  | coe r => exact ⟨r, rfl⟩
  | top => exact absurd hlt.1 (by simp)

/-- ONE ARRAY: if the conjunction over all entries of `|a j| < +∞` (a reduction by `and` over all axes, from 1, of
    the entrywise comparison against the broadcast `+∞`) is 1, every entry of `a` is a real number. Generic in the
    array's shape: the entry is read at a symbolic index. -/
theorem all_real {s : Shape} {axes : List (Fin s.rank)}
    (hb : (⟨0, ![]⟩ : Shape).BroadcastsInDim s (![] : Fin 0 → Fin s.rank))
    (hr : s.ReducesTo axes (⟨0, ![]⟩ : Shape)) (hu : 0 < (⟨0, ![]⟩ : Shape).numel) (a : FVec Ideal s .f32)
    (i : (⟨0, ![]⟩ : Shape).Idx)
    (e : Host.reduce IntOp.andi
        (cmpf .olt (Host.absf a)
          (broadcastInDim s ![] hb (constant (F := Ideal) (⟨0, ![]⟩ : Shape) .f32 0x7F800000#32)))
        (constantI (⟨0, ![]⟩ : Shape) 1 1#1) hr hu i = 1#1) :
    ∀ j, ∃ r : ℝ, a j = (r : EReal) := fun j =>
  real_of_abs_lt_inf (a j) (Host.reduce_andi_all _ _ hr hu i e j)

end FiniteReal

end
-- ==== Proof.FiniteRows.lean ====
/-
  Under the precondition both argument arrays hold real numbers only.

  The precondition is printed as one bit: for each of the two arrays, the conjunction over all entries of
  "the absolute value is below +∞", and the two conjunctions joined by `and`. If that bit is 1 then each
  conjunction is 1, and an array whose conjunction is 1 has no infinite entry and no junk entry: every entry is
  the coercion of a real number.
-/
import proofs.«157217_j4707284156573_1_alg».proof.Defs
import proofs.«157217_j4707284156573_1_alg».proof.Proof.LibFiniteReal
import proofs.«157217_j4707284156573_1_alg».proof.Proof.Gen.Pre_finite_inputs

noncomputable section

namespace Cert.Finite

open Idealize.ShloMosaic Idealize.SL.Sem in
/-- Under the precondition every entry of both argument arrays is a real number. -/
theorem rows_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : Cert.KernelIdeal.S8388608x4.Idx, ∃ r : ℝ,
        (m ((c.tc : Thread Cert.KernelIdeal.nD Cert.KernelIdeal.τ).loc Cert.KernelIdeal.main_arg0) : Cert.KernelIdeal.S8388608x4.Idx → EReal) j = (r : EReal))
    ∧ (∀ j : Cert.KernelIdeal.S8388608x4.Idx, ∃ r : ℝ,
        (m ((c.tc : Thread Cert.KernelIdeal.nD Cert.KernelIdeal.τ).loc Cert.KernelIdeal.main_arg1) : Cert.KernelIdeal.S8388608x4.Idx → EReal) j = (r : EReal)) := by
  -- the precondition's one bit, read at the only index of a scalar
  have e := congrFun (h c) ValueIdx.ix0
  dsimp only [Cert.Pre_finite_inputs.fn, andi] at e
  -- a conjunction of two bits is 1 only if both are
  obtain ⟨e0, e1⟩ := IntOp.andi_eq_one.mp e
  exact ⟨FiniteReal.all_real _ _ _ _ _ e0, FiniteReal.all_real _ _ _ _ _ e1⟩

end Cert.Finite

end
-- ==== Proof.lean ====
/-
  The loss is a mean over 2²³ rows: each row of the two arguments (four box distances each) gives two diagonal
  Gaussians, and the row's loss is 1 - 1/(1 + js²) with js half their geometric Jensen-Shannon divergence.

  The kernel walks the rows in 32 blocks of 262144, two halves of 16 blocks; each half keeps a running total in entry
  (0, 0) of an 8 × 128 tile that is zero elsewhere, the two tiles are summed after the region, and the sum is divided by
  the number of rows. The reference computes every row's loss as one array, sums it and divides. At the extended reals
  both results are (0 + the sum over all rows of the row's loss) / 2²³ · 1; the two programs' row functions differ in
  how they group the terms of js (per axis and then over the axes, or per kind of term over the axes first) and in
  halving by 1/2 or dividing by 2, and agree on real entries (RowLossEq) — which every entry is under the precondition
  (FiniteRows). Nothing the kernel's idealization rewrote needs a statement: the ledger is empty.

  Modules: RowLoss (the two row functions), RowLossConsts / RowLossReal / RowLossEq (their equality on reals),
  FiniteRows (the precondition read at an entry); RefCols / RefAxes / RefRow (the reference's array, entry by entry);
  KBody / KPay1 (the body's arithmetic at a row and its block total), KCorner / KPieces / KPieceA (what each of the
  three cases leaves in the accumulator), KBlocks (which rows a block holds), KOut (the output array from its
  flushed blocks), KTotal / TileSums (regrouping the sum), KTail (the operations after the region), KAcc (the
  accumulator over the grid and the kernel's result).
-/
import proofs.«157217_j4707284156573_1_alg».proof.Defs
import proofs.«157217_j4707284156573_1_alg».proof.Proof.Gen.Kernel
import proofs.«157217_j4707284156573_1_alg».proof.Proof.Gen.Kernel.Skeleton
import proofs.«157217_j4707284156573_1_alg».proof.Proof.Gen.Kernel.Launch
import proofs.«157217_j4707284156573_1_alg».proof.Proof.Gen.Kernel.Points
import proofs.«157217_j4707284156573_1_alg».proof.Proof.Gen.Kernel.Frame
import proofs.«157217_j4707284156573_1_alg».proof.Proof.Gen.KernelIdeal
import proofs.«157217_j4707284156573_1_alg».proof.Proof.Gen.KernelIdeal.Skeleton
import proofs.«157217_j4707284156573_1_alg».proof.Proof.Gen.KernelIdeal.Launch
import proofs.«157217_j4707284156573_1_alg».proof.Proof.Gen.KernelIdeal.Points
import proofs.«157217_j4707284156573_1_alg».proof.Proof.Gen.KernelIdeal.Frame
import proofs.«157217_j4707284156573_1_alg».proof.Proof.Gen.ReferenceIdeal
import proofs.«157217_j4707284156573_1_alg».proof.Proof.Gen.ReferenceIdeal.Run
import proofs.«157217_j4707284156573_1_alg».proof.Proof.Gen.ReferenceIdeal.Read
import proofs.«157217_j4707284156573_1_alg».proof.Proof.Gen.Pre_finite_inputs
import proofs.«157217_j4707284156573_1_alg».proof.Proof.KAcc
import proofs.«157217_j4707284156573_1_alg».proof.Proof.RefRow
import proofs.«157217_j4707284156573_1_alg».proof.Proof.RowLossEq
import proofs.«157217_j4707284156573_1_alg».proof.Proof.FiniteRows
import Idealize.ShloMosaic.Adequacy
import Idealize.ShloMosaic.Init

noncomputable section

open scoped BigOperators

namespace Cert.Proof

open Idealize.ShloMosaic Idealize.SL.Sem

/-- Each program runs to the end and leaves its arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the mean of the rows' losses: the kernel by its accumulator over the grid and the operations
    after the region, the reference by its per-row array; the two row functions agree because every entry is real. -/
theorem algebraic : Cert.algebraic_KernelIdeal_ReferenceIdeal := by
  intro m ρ m' ρ' hpre hagree
  refine ⟨fun c => ((fun _ => RowLoss.meanOf (RowLoss.zero + ∑ n : Fin 8388608, Cert.KernelIdeal.Acc.rowLoss m c n.val)) :
      Cert.KernelIdeal.S_.Idx → EReal), ?_, ?_⟩
  · refine (θ_run Cert.KernelIdeal.defs _ _).mono (fun r h c => ⟨?_, ?_, ?_⟩) (Cert.KernelIdeal.Gen.run_main m ρ)
    · exact ((h c).2 Cert.KernelIdeal.main_v3 (Pipeline.mem_restRefs_of _ rfl (by decide))).trans
        (Cert.KernelIdeal.Acc.result_eq m c)
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).1 1).trans (((Cert.KernelIdeal.Gen.dats m 0 c).arrAt_in 1 rfl _).trans
        ((Cert.KernelIdeal.Gen.A_eq m c 1).trans (Cert.KernelIdeal.Gen.V_main_arg1 m c)))
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v134_eq, (hagree c).1, (hagree c).2]
    funext i
    rw [Cert.ReferenceIdeal.RefValue.result_eq]
    refine congrArg (fun s => RowLoss.meanOf (RowLoss.zero + s)) (Finset.sum_congr rfl fun n _ => ?_)
    have hr := Cert.Finite.rows_real m hpre c
    unfold Cert.KernelIdeal.Acc.rowLoss
    rw [dif_pos n.isLt]
    exact (RowLoss.rowK_eq_rowR _ _ (fun k => hr.1 _) (fun k => hr.2 _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
